-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v66) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x128 : Shape := ⟨2, ![8192, 128]⟩
abbrev S8192 : Shape := ⟨1, ![8192]⟩
abbrev S_ : Shape := ⟨0, ![]⟩

class Facts : Prop where
  bcast_S_S8192x128 : S_.BroadcastsInDim S8192x128 (![] : Fin 0 → Fin S8192x128.rank)
  reducesTo_S8192x128_S_d0_1 : S8192x128.ReducesTo [0, 1] S_
  h_S_ : 0 < S_.numel

variable [Facts]

def fn {F : FTy → Type} [FloatOps F] (main_arg0 : FVec F S8192x128 .f32) (main_arg1 : IVec S8192 32) : IVec S_ 1 :=
  let main_v0 : FVec F S8192x128 .f32 := Host.absf main_arg0
  let main_cst : FVec F S_ .f32 := constant S_ .f32 0x7F800000#32
  let main_v1 : FVec F S8192x128 .f32 := broadcastInDim S8192x128 ![] bcast_S_S8192x128 main_cst
  let main_v2 : IVec S8192x128 1 := cmpf .olt main_v0 main_v1
  let main_c : IVec S_ 1 := constantI S_ 1 1#1
  let main_v3 : IVec S_ 1 := (fun x v => Host.reduce IntOp.andi x v reducesTo_S8192x128_S_d0_1 h_S_) main_v2 main_c
  main_v3
-- ==== Kernel.lean ====
abbrev S8192x128 : Shape := ⟨2, ![8192, 128]⟩
abbrev S8192 : Shape := ⟨1, ![8192]⟩
abbrev S128x8192 : Shape := ⟨2, ![128, 8192]⟩
abbrev S8192x1 : Shape := ⟨2, ![8192, 1]⟩
abbrev S1x8192 : Shape := ⟨2, ![1, 8192]⟩
abbrev S128x128 : Shape := ⟨2, ![128, 128]⟩
abbrev S128x1 : Shape := ⟨2, ![128, 1]⟩
abbrev S128 : Shape := ⟨1, ![128]⟩
abbrev S_ : Shape := ⟨0, ![]⟩

abbrev nBuf : Space → Nat
  | .hbm => 20
  | .vmem => 10
  | .smem => 0
  | _ => 0

abbrev bufTy : (tb : Table) → Fin (tcTables nBuf tb) → BufTy
  | .hbm, ⟨0, _⟩ => ⟨S8192x128, .f32⟩
  | .hbm, ⟨1, _⟩ => ⟨S8192, .i32⟩
  | .hbm, ⟨2, _⟩ => ⟨S8192x128, .bf16⟩
  | .hbm, ⟨3, _⟩ => ⟨S128x8192, .bf16⟩
  | .hbm, ⟨4, _⟩ => ⟨S8192x1, .i32⟩
  | .hbm, ⟨5, _⟩ => ⟨S1x8192, .i32⟩
  | .hbm, ⟨6, _⟩ => ⟨S8192x1, .f32⟩
  | .hbm, ⟨7, _⟩ => ⟨S8192x1, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .i1⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .local _ .vmem, ⟨0, _⟩ => ⟨S128x128, .bf16⟩
  | .local _ .vmem, ⟨1, _⟩ => ⟨S128x128, .bf16⟩
  | .local _ .vmem, ⟨2, _⟩ => ⟨S128x8192, .bf16⟩
  | .local _ .vmem, ⟨3, _⟩ => ⟨S128x1, .i32⟩
  | .local _ .vmem, ⟨4, _⟩ => ⟨S128x1, .i32⟩
  | .local _ .vmem, ⟨5, _⟩ => ⟨S1x8192, .i32⟩
  | .local _ .vmem, ⟨6, _⟩ => ⟨S128x1, .f32⟩
  | .local _ .vmem, ⟨7, _⟩ => ⟨S128x1, .f32⟩
  | .local _ .vmem, ⟨8, _⟩ => ⟨S128x1, .f32⟩
  | .local _ .vmem, ⟨9, _⟩ => ⟨S128x1, .f32⟩
  | _, _ => ⟨S8192x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4_0 : Ref sig .tc := ⟨.hbm, 6, rfl⟩
abbrev main_v4_1 : Ref sig .tc := ⟨.hbm, 7, rfl⟩
abbrev main_cst : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_cst_2 : Ref sig .tc := ⟨.hbm, 14, rfl⟩
abbrev main_v8 : Ref sig .tc := ⟨.hbm, 15, rfl⟩
abbrev main_v9 : Ref sig .tc := ⟨.hbm, 16, rfl⟩
abbrev main_cst_3 : Ref sig .tc := ⟨.hbm, 17, rfl⟩
abbrev main_call0_v0 : Ref sig .tc := ⟨.hbm, 18, rfl⟩
abbrev main_v10 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x8192 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S128x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x8192 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S128x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  bitsLt_bf16_f32 : FTy.bits .bf16 < FTy.bits .f32
  transposes_S8192x128_S128x8192_1_0 : S8192x128.Transposes [1, 0] S128x8192
  shapeCasts_S8192_S8192x1 : S8192.ShapeCasts S8192x1
  shapeCasts_S8192_S1x8192 : S8192.ShapeCasts S1x8192
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S128x8192_S128x8192_0_0 : ∀ a, (![0, 0] : Fin 2 → Nat) a + S128x8192.size a ≤ S128x8192.size a
  h_S128x8192 : 0 < S128x8192.numel
  shapeCasts_S128x8192_S128x8192 : S128x8192.ShapeCasts S128x8192
  inb_S128x1_S128x1_0_0 : ∀ a, (![0, 0] : Fin 2 → Nat) a + S128x1.size a ≤ S128x1.size a
  h_S128x1 : 0 < S128x1.numel
  shapeCasts_S128x1_S128x1 : S128x1.ShapeCasts S128x1
  inb_S1x8192_S1x8192_0_0 : ∀ a, (![0, 0] : Fin 2 → Nat) a + S1x8192.size a ≤ S1x8192.size a
  h_S1x8192 : 0 < S1x8192.numel
  shapeCasts_S1x8192_S1x8192 : S1x8192.ShapeCasts S1x8192
  broadcasts_S128x1_S128x8192 : S128x1.Broadcasts S128x8192
  broadcasts_S1x8192_S128x8192 : S1x8192.Broadcasts S128x8192
  iota_S128x1_d0_w32 : S128x1.Iotas .tc 32 [0]
  iota_S1x8192_d1_w32 : S1x8192.Iotas .tc 32 [1]
  reduces_S128x8192_S128 : S128x8192.Reduces [1] S128
  shapeCasts_S128_S128x1 : S128.ShapeCasts S128x1
  natLt_1_32 : 1 < 32
  reducesTo_S8192x1_S_d0_1 : S8192x1.ReducesTo [0, 1] S_
  h_S_ : 0 < S_.numel
  dot_S128x128_S128x8192_S128x8192_1_0_0_1_n_n_wf : DotDims.WF S128x128 S128x8192 S128x8192 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x128.size a ≤ S8192x128.size a
  hwx0_0 : ∀ i : grid0.Coords, EltTy.bits .bf16 = 32 ∨ (Rect.block (s := S8192x128) S128x128.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x8192.size a ≤ S128x8192.size a
  hwx0_1 : ∀ i : grid0.Coords, EltTy.bits .bf16 = 32 ∨ (Rect.block (s := S128x8192) S128x8192.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x1.size a ≤ S8192x1.size a
  hwx0_2 : ∀ i : grid0.Coords, EltTy.bits .i32 = 32 ∨ (Rect.block (s := S8192x1) S128x1.size (cc0_transform_2 i) (hinb0_2 i)).WholeWords (EltTy.packing .i32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x8192.size a ≤ S1x8192.size a
  hwx0_3 : ∀ i : grid0.Coords, EltTy.bits .i32 = 32 ∨ (Rect.block (s := S1x8192) S1x8192.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S128x1.size a ≤ S8192x1.size a
  hwx0_4 : ∀ i : grid0.Coords, EltTy.bits .f32 = 32 ∨ (Rect.block (s := S8192x1) S128x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S128x1.size a ≤ S8192x1.size a
  hwx0_5 : ∀ i : grid0.Coords, EltTy.bits .f32 = 32 ∨ (Rect.block (s := S8192x1) S128x1.size (cc0_transform_5 i) (hinb0_5 i)).WholeWords (EltTy.packing .f32)

variable [Facts₀]

def dot_S128x128_S128x8192_S128x8192_1_0_0_1_n_n : DotDims S128x128 S128x8192 S128x8192 where
  lhsContracting := [1]
  rhsContracting := [0]
  lhsNonContracting := [0]
  rhsNonContracting := [1]
  lhsBatch := []
  rhsBatch := []
  wf := dot_S128x128_S128x8192_S128x8192_1_0_0_1_n_n_wf

abbrev win0_0 : Pipeline.Window sig grid0 :=
  Pipeline.Window.ofSpec (Memref.whole main_v0) S128x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S128x8192.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S128x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1x8192.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v4_0) S128x1.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v4_1) S128x1.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S8192x128 : Shape := ⟨2, ![8192, 128]⟩
abbrev S8192 : Shape := ⟨1, ![8192]⟩
abbrev S128x8192 : Shape := ⟨2, ![128, 8192]⟩
abbrev S8192x8192 : Shape := ⟨2, ![8192, 8192]⟩
abbrev S8192x1 : Shape := ⟨2, ![8192, 1]⟩
abbrev S1x8192 : Shape := ⟨2, ![1, 8192]⟩
abbrev S_ : Shape := ⟨0, ![]⟩

abbrev nBuf : Space → Nat
  | .hbm => 107
  | .vmem => 0
  | .smem => 0
  | _ => 0

abbrev bufTy : (tb : Table) → Fin (tcTables nBuf tb) → BufTy
  | .hbm, ⟨0, _⟩ => ⟨S8192x128, .f32⟩
  | .hbm, ⟨1, _⟩ => ⟨S8192, .i32⟩
  | .hbm, ⟨2, _⟩ => ⟨S128x8192, .f32⟩
  | .hbm, ⟨3, _⟩ => ⟨S8192x8192, .f32⟩
  | .hbm, ⟨4, _⟩ => ⟨S8192x1, .i32⟩
  | .hbm, ⟨5, _⟩ => ⟨S1x8192, .i32⟩
  | .hbm, ⟨6, _⟩ => ⟨S8192x8192, .i32⟩
  | .hbm, ⟨7, _⟩ => ⟨S8192x8192, .i32⟩
  | .hbm, ⟨8, _⟩ => ⟨S8192x8192, .i1⟩
  | .hbm, ⟨9, _⟩ => ⟨S8192x8192, .i32⟩
  | .hbm, ⟨10, _⟩ => ⟨S8192x8192, .i32⟩
  | .hbm, ⟨11, _⟩ => ⟨S_, .i32⟩
  | .hbm, ⟨12, _⟩ => ⟨S8192x8192, .i32⟩
  | .hbm, ⟨13, _⟩ => ⟨S8192x8192, .i32⟩
  | .hbm, ⟨14, _⟩ => ⟨S8192x8192, .i1⟩
  | .hbm, ⟨15, _⟩ => ⟨S8192x8192, .i1⟩
  | .hbm, ⟨16, _⟩ => ⟨S8192x8192, .i1⟩
  | .hbm, ⟨17, _⟩ => ⟨S8192x8192, .i1⟩
  | .hbm, ⟨18, _⟩ => ⟨S_, .i1⟩
  | .hbm, ⟨19, _⟩ => ⟨S8192, .i1⟩
  | .hbm, ⟨20, _⟩ => ⟨S_, .i1⟩
  | .hbm, ⟨21, _⟩ => ⟨S8192, .i1⟩
  | .hbm, ⟨22, _⟩ => ⟨S_, .f32⟩
  | .hbm, ⟨23, _⟩ => ⟨S_, .f32⟩
  | .hbm, ⟨24, _⟩ => ⟨S8192x8192, .f32⟩
  | .hbm, ⟨25, _⟩ => ⟨S8192x8192, .f32⟩
  | .hbm, ⟨26, _⟩ => ⟨S_, .f32⟩
  | .hbm, ⟨27, _⟩ => ⟨S8192, .f32⟩
  | .hbm, ⟨28, _⟩ => ⟨S_, .f32⟩
  | .hbm, ⟨29, _⟩ => ⟨S8192, .f32⟩
  | .hbm, ⟨30, _⟩ => ⟨S8192, .f32⟩
  | .hbm, ⟨31, _⟩ => ⟨S8192x1, .f32⟩
  | .hbm, ⟨32, _⟩ => ⟨S8192x8192, .f32⟩
  | .hbm, ⟨33, _⟩ => ⟨S8192x8192, .i1⟩
  | .hbm, ⟨34, _⟩ => ⟨S8192x8192, .i1⟩
  | .hbm, ⟨35, _⟩ => ⟨S_, .i1⟩
  | .hbm, ⟨36, _⟩ => ⟨S8192, .i1⟩
  | .hbm, ⟨37, _⟩ => ⟨S_, .f32⟩
  | .hbm, ⟨38, _⟩ => ⟨S_, .f32⟩
  | .hbm, ⟨39, _⟩ => ⟨S8192x8192, .f32⟩
  | .hbm, ⟨40, _⟩ => ⟨S8192x8192, .f32⟩
  | .hbm, ⟨41, _⟩ => ⟨S_, .f32⟩
  | .hbm, ⟨42, _⟩ => ⟨S8192, .f32⟩
  | .hbm, ⟨43, _⟩ => ⟨S_, .f32⟩
  | .hbm, ⟨44, _⟩ => ⟨S8192, .f32⟩
  | .hbm, ⟨45, _⟩ => ⟨S8192, .f32⟩
  | .hbm, ⟨46, _⟩ => ⟨S8192x1, .f32⟩
  | .hbm, ⟨47, _⟩ => ⟨S8192x8192, .f32⟩
  | .hbm, ⟨48, _⟩ => ⟨S8192x8192, .i1⟩
  | .hbm, ⟨49, _⟩ => ⟨S8192x8192, .i1⟩
  | .hbm, ⟨50, _⟩ => ⟨S_, .i1⟩
  | .hbm, ⟨51, _⟩ => ⟨S8192, .i1⟩
  | .hbm, ⟨52, _⟩ => ⟨S8192, .i1⟩
  | .hbm, ⟨53, _⟩ => ⟨S8192, .i1⟩
  | .hbm, ⟨54, _⟩ => ⟨S8192, .i1⟩
  | .hbm, ⟨55, _⟩ => ⟨S_, .f32⟩
  | .hbm, ⟨56, _⟩ => ⟨S8192x8192, .f32⟩
  | .hbm, ⟨57, _⟩ => ⟨S8192x8192, .f32⟩
  | .hbm, ⟨58, _⟩ => ⟨S_, .f32⟩
  | .hbm, ⟨59, _⟩ => ⟨S8192x8192, .f32⟩
  | .hbm, ⟨60, _⟩ => ⟨S8192x8192, .f32⟩
  | .hbm, ⟨61, _⟩ => ⟨S8192x8192, .f32⟩
  | .hbm, ⟨62, _⟩ => ⟨S_, .f32⟩
  | .hbm, ⟨63, _⟩ => ⟨S_, .f32⟩
  | .hbm, ⟨64, _⟩ => ⟨S8192x8192, .f32⟩
  | .hbm, ⟨65, _⟩ => ⟨S8192x8192, .f32⟩
  | .hbm, ⟨66, _⟩ => ⟨S_, .f32⟩
  | .hbm, ⟨67, _⟩ => ⟨S8192, .f32⟩
  | .hbm, ⟨68, _⟩ => ⟨S_, .f32⟩
  | .hbm, ⟨69, _⟩ => ⟨S8192x8192, .f32⟩
  | .hbm, ⟨70, _⟩ => ⟨S8192x8192, .f32⟩
  | .hbm, ⟨71, _⟩ => ⟨S_, .f32⟩
  | .hbm, ⟨72, _⟩ => ⟨S8192x8192, .f32⟩
  | .hbm, ⟨73, _⟩ => ⟨S8192x8192, .f32⟩
  | .hbm, ⟨74, _⟩ => ⟨S8192x8192, .f32⟩
  | .hbm, ⟨75, _⟩ => ⟨S_, .f32⟩
  | .hbm, ⟨76, _⟩ => ⟨S_, .f32⟩
  | .hbm, ⟨77, _⟩ => ⟨S8192x8192, .f32⟩
  | .hbm, ⟨78, _⟩ => ⟨S8192x8192, .f32⟩
  | .hbm, ⟨79, _⟩ => ⟨S_, .f32⟩
  | .hbm, ⟨80, _⟩ => ⟨S8192, .f32⟩
  | .hbm, ⟨81, _⟩ => ⟨S8192, .f32⟩
  | .hbm, ⟨82, _⟩ => ⟨S_, .f32⟩
  | .hbm, ⟨83, _⟩ => ⟨S8192, .f32⟩
  | .hbm, ⟨84, _⟩ => ⟨S8192, .f32⟩
  | .hbm, ⟨85, _⟩ => ⟨S8192, .f32⟩
  | .hbm, ⟨86, _⟩ => ⟨S_, .f32⟩
  | .hbm, ⟨87, _⟩ => ⟨S8192, .f32⟩
  | .hbm, ⟨88, _⟩ => ⟨S8192, .f32⟩
  | .hbm, ⟨89, _⟩ => ⟨S8192, .f32⟩
  | .hbm, ⟨90, _⟩ => ⟨S_, .f32⟩
  | .hbm, ⟨91, _⟩ => ⟨S_, .f32⟩
  | .hbm, ⟨92, _⟩ => ⟨S8192, .f32⟩
  | .hbm, ⟨93, _⟩ => ⟨S8192, .f32⟩
  | .hbm, ⟨94, _⟩ => ⟨S_, .f32⟩
  | .hbm, ⟨95, _⟩ => ⟨S_, .f32⟩
  | .hbm, ⟨96, _⟩ => ⟨S8192, .f32⟩
  | .hbm, ⟨97, _⟩ => ⟨S_, .f32⟩
  | .hbm, ⟨98, _⟩ => ⟨S_, .f32⟩
  | .hbm, ⟨99, _⟩ => ⟨S_, .f32⟩
  | .hbm, ⟨100, _⟩ => ⟨S_, .i1⟩
  | .hbm, ⟨101, _⟩ => ⟨S_, .f32⟩
  | .hbm, ⟨102, _⟩ => ⟨S_, .f32⟩
  | .hbm, ⟨103, _⟩ => ⟨S_, .f32⟩
  | .hbm, ⟨104, _⟩ => ⟨S_, .f32⟩
  | .hbm, ⟨105, _⟩ => ⟨S_, .f32⟩
  | .hbm, ⟨106, _⟩ => ⟨S_, .f32⟩
  | _, _ => ⟨S8192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_c : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_c_0 : Ref sig .tc := ⟨.hbm, 18, rfl⟩
abbrev main_v15 : Ref sig .tc := ⟨.hbm, 19, rfl⟩
abbrev main_c_1 : Ref sig .tc := ⟨.hbm, 20, rfl⟩
abbrev main_v16 : Ref sig .tc := ⟨.hbm, 21, rfl⟩
abbrev main_cst : Ref sig .tc := ⟨.hbm, 22, rfl⟩
abbrev main_call0_v0 : Ref sig .tc := ⟨.hbm, 23, rfl⟩
abbrev main_call0_v1 : Ref sig .tc := ⟨.hbm, 24, rfl⟩
abbrev main_v17 : Ref sig .tc := ⟨.hbm, 25, rfl⟩
abbrev main_cst_2 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_c_4 : Ref sig .tc := ⟨.hbm, 35, rfl⟩
abbrev main_v25 : Ref sig .tc := ⟨.hbm, 36, rfl⟩
abbrev main_cst_5 : Ref sig .tc := ⟨.hbm, 37, rfl⟩
abbrev main_call1_v0 : Ref sig .tc := ⟨.hbm, 38, rfl⟩
abbrev main_call1_v1 : Ref sig .tc := ⟨.hbm, 39, rfl⟩
abbrev main_v26 : Ref sig .tc := ⟨.hbm, 40, rfl⟩
abbrev main_cst_6 : Ref sig .tc := ⟨.hbm, 41, rfl⟩
abbrev main_v27 : Ref sig .tc := ⟨.hbm, 42, rfl⟩
abbrev main_cst_7 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_c_8 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_cst_9 : Ref sig .tc := ⟨.hbm, 55, rfl⟩
abbrev main_v38 : Ref sig .tc := ⟨.hbm, 56, rfl⟩
abbrev main_v39 : Ref sig .tc := ⟨.hbm, 57, rfl⟩
abbrev main_cst_10 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_11 : Ref sig .tc := ⟨.hbm, 62, rfl⟩
abbrev main_call2_v0 : Ref sig .tc := ⟨.hbm, 63, rfl⟩
abbrev main_call2_v1 : Ref sig .tc := ⟨.hbm, 64, rfl⟩
abbrev main_v43 : Ref sig .tc := ⟨.hbm, 65, rfl⟩
abbrev main_cst_12 : Ref sig .tc := ⟨.hbm, 66, rfl⟩
abbrev main_v44 : Ref sig .tc := ⟨.hbm, 67, rfl⟩
abbrev main_cst_13 : Ref sig .tc := ⟨.hbm, 68, rfl⟩
abbrev main_v45 : Ref sig .tc := ⟨.hbm, 69, rfl⟩
abbrev main_v46 : Ref sig .tc := ⟨.hbm, 70, rfl⟩
abbrev main_cst_14 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_cst_15 : Ref sig .tc := ⟨.hbm, 75, rfl⟩
abbrev main_call3_v0 : Ref sig .tc := ⟨.hbm, 76, rfl⟩
abbrev main_call3_v1 : Ref sig .tc := ⟨.hbm, 77, rfl⟩
abbrev main_v50 : Ref sig .tc := ⟨.hbm, 78, rfl⟩
abbrev main_cst_16 : Ref sig .tc := ⟨.hbm, 79, rfl⟩
abbrev main_v51 : Ref sig .tc := ⟨.hbm, 80, rfl⟩
abbrev main_v52 : Ref sig .tc := ⟨.hbm, 81, rfl⟩
abbrev main_cst_17 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_cst_18 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_cst_19 : Ref sig .tc := ⟨.hbm, 90, rfl⟩
abbrev main_call4_v0 : Ref sig .tc := ⟨.hbm, 91, rfl⟩
abbrev main_call4_v1 : Ref sig .tc := ⟨.hbm, 92, rfl⟩
abbrev main_v59 : Ref sig .tc := ⟨.hbm, 93, rfl⟩
abbrev main_cst_20 : Ref sig .tc := ⟨.hbm, 94, rfl⟩
abbrev main_v60 : Ref sig .tc := ⟨.hbm, 95, rfl⟩
abbrev main_v61 : Ref sig .tc := ⟨.hbm, 96, rfl⟩
abbrev main_cst_21 : Ref sig .tc := ⟨.hbm, 97, rfl⟩
abbrev main_v62 : Ref sig .tc := ⟨.hbm, 98, rfl⟩
abbrev main_cst_22 : Ref sig .tc := ⟨.hbm, 99, rfl⟩
abbrev main_v63 : Ref sig .tc := ⟨.hbm, 100, rfl⟩
abbrev main_cst_23 : Ref sig .tc := ⟨.hbm, 101, rfl⟩
abbrev main_v64 : Ref sig .tc := ⟨.hbm, 102, rfl⟩
abbrev main_v65 : Ref sig .tc := ⟨.hbm, 103, rfl⟩
abbrev main_cst_24 : Ref sig .tc := ⟨.hbm, 104, rfl⟩
abbrev main_call5_v0 : Ref sig .tc := ⟨.hbm, 105, rfl⟩
abbrev main_v66 : Ref sig .tc := ⟨.hbm, 106, rfl⟩

abbrev nD : Nat := 1
abbrev τ : Topo := Topo.v7x

variable {F : FTy → Type} [FloatOps F]

class Facts₀ : Prop where
  transposes_S8192x128_S128x8192_1_0 : S8192x128.Transposes [1, 0] S128x8192
  bcast_S8192_S8192x1_0 : S8192.BroadcastsInDim S8192x1 (![0] : Fin 1 → Fin S8192x1.rank)
  bcast_S8192_S1x8192_1 : S8192.BroadcastsInDim S1x8192 (![1] : Fin 1 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  bcast_S_S8192x8192 : S_.BroadcastsInDim S8192x8192 (![] : Fin 0 → Fin S8192x8192.rank)
  reducesTo_S8192x8192_S8192_d1 : S8192x8192.ReducesTo [1] S8192
  h_S_ : 0 < S_.numel
  bcast_S_S8192 : S_.BroadcastsInDim S8192 (![] : Fin 0 → Fin S8192.rank)
  reducesTo_S8192_S_d0 : S8192.ReducesTo [0] S_
  dot_S8192x128_S128x8192_S8192x8192_1_0_0_1_n_n_wf : DotDims.WF S8192x128 S128x8192 S8192x8192 [1] [0] [0] [1] [] []

variable [Facts₀]

def dot_S8192x128_S128x8192_S8192x8192_1_0_0_1_n_n : DotDims S8192x128 S128x8192 S8192x8192 where
  lhsContracting := [1]
  rhsContracting := [0]
  lhsNonContracting := [0]
  rhsNonContracting := [1]
  lhsBatch := []
  rhsBatch := []
  wf := dot_S8192x128_S128x8192_S8192x8192_1_0_0_1_n_n_wf

class Facts : Prop extends Facts₀ where

variable [Facts]
-- ==== Proof.PairLoss.lean ====
/-
  The mathematics of this certificate, free of any program: a pair-mining similarity loss over 8192 unit vectors.

  For a row `r`, with `s c` the similarity of `r` and `c`, `e c` the bit "same label" and `d c` the bit "c is r itself":
  the positives are the other members of `r`'s class, the negatives the members of other classes; a negative is KEPT
  when its similarity exceeds the least positive similarity less a margin, a positive is KEPT when its similarity is
  below the greatest kept negative similarity plus the margin; the row is VALID when it has a positive, a negative, a kept
  negative and a kept positive; its loss is `log1p (Σ kept positives e^{-2(s - 1/2)}) / 2 + log1p (Σ kept negatives
  e^{50(s - 1/2)}) / 50`. The result is the mean of the valid rows' losses (zero when no row is valid).

  Every quantity is written with the exact extended-real operations, the literals as their f32 words, and each reduction
  along a row as a fold (or sum) over the 8192 columns: the two programs differ in how they tile the rows, in how they
  decide "some column has the bit" and in how they spell the complement of a bit and the self pair; the lemmas below
  join those spellings.
-/
import Idealize.ShloMosaic.PureOps.Ideal
import Idealize.ShloMosaic.PureOps.Ideal.Laws
import Idealize.ShloMosaic.PureOps.Reduce
import Idealize.ShloMosaic.Lib.IdealHost
import Idealize.ShloMosaic.Lib.ValueIdx

noncomputable section

namespace Cert.PairLoss

open Idealize.ShloMosaic Idealize.ShloMosaic.ValueIdx

/-! ## Bits -/

/-- Exclusive-or with the set bit is the complement. -/
theorem xor_one_eq_not : ∀ b : BitVec 1, IntOp.xori b 1#1 = ~~~b := by decide

/-- A one-bit word widened to 32 bits and read as a signed integer is the word read as a natural number. -/
theorem setWidth_toInt_eq_toNat : ∀ b : BitVec 1, ((b.setWidth 32).toInt : ℤ) = (b.toNat : ℤ) := by decide

/-- Some member of a finite family of bits is set: the fold of `or` from the clear bit. -/
def anyBit {ι : Type} [Fintype ι] (b : ι → BitVec 1) : BitVec 1 := Finset.univ.fold IntOp.ori 0#1 b

/-- "Some column has the bit", decided on floats: the greatest of the indicators (`hi` where the bit is set, `lo`
    elsewhere, from `-∞`) exceeds `lo` — exactly when some bit is set, given `lo < hi`. -/
theorem fold_max_indicator_gt {ι : Type} (S : Finset ι) (b : ι → BitVec 1) (hi lo : EReal) (h : lo < hi) :
    Ideal.cmp .ogt (S.fold max ⊥ (fun c => Scalar.select (b c) hi lo)) lo = S.fold IntOp.ori 0#1 b := by
  classical
  induction S using Finset.induction_on with
  | empty =>
    simp only [Finset.fold_empty]
    have : ¬ lo < (⊥ : EReal) := not_lt_bot
    simp [Ideal.cmp, this]
  | insert a S ha ih =>
    rw [Finset.fold_insert ha, Finset.fold_insert ha, ← ih]
    have hb : b a = 1#1 ∨ b a = 0#1 := by
      have : ∀ x : BitVec 1, x = 1#1 ∨ x = 0#1 := by decide
      exact this _
    rcases hb with hb | hb
    · rw [hb, select_one]
      have h1 : lo < max hi (S.fold max ⊥ fun c => Scalar.select (b c) hi lo) := lt_max_of_lt_left h
      simp only [Ideal.cmp, h1, decide_true]
      have : ∀ x : BitVec 1, IntOp.ori 1#1 x = 1#1 := by decide
      rw [this]; rfl
    · rw [hb, select_zero]
      have h0 : ∀ x : EReal, (lo < max lo x) = (lo < x) := fun x => by
        rw [lt_max_iff]; simp
      simp only [Ideal.cmp, h0]
      have : ∀ x : BitVec 1, IntOp.ori 0#1 x = x := by decide
      rw [this]

/-! ## A row's reductions as folds over its columns

  In a rank-2 array reduced along its second axis, the source index over the result index `p` with the column `k`
  inserted is `(p, k)`. -/

theorem lift_row {n m : Nat} (h : Shape.Reduces ⟨2, ![n, m]⟩ [1] ⟨1, ![n]⟩) (p : Fin n) (k : Fin m) :
    h.lift (ix1 p) k = ix2 p k := by
  funext a
  apply Fin.ext
  match a with
  | ⟨0, _⟩ => rfl
  | ⟨1, _⟩ => rfl

/-! ## One row

  `s c` is the row's similarity to column `c`, `e c` the bit "column `c` has the row's label", `d c` the bit "column
  `c` is the row itself". The literals are kept as their f32 words: margin `0x3DCCCCCD` (the float nearest 0.1), base
  `0x3F000000` (1/2), scales `0xC0000000` (−2) and `0x42480000` (50), divisors `0x40000000` (2) and `0x42480000` (50). -/

section Row

variable (s : Fin 8192 → EReal) (e d : Fin 8192 → BitVec 1)

/-- A positive: another member of the row's class. -/
def pos (c : Fin 8192) : BitVec 1 := IntOp.andi (e c) (~~~(d c))

/-- A negative: a member of another class. -/
def neg (c : Fin 8192) : BitVec 1 := ~~~(e c)

/-- The least similarity among the positives (`+∞` when there is none). -/
def posMin : EReal :=
  Finset.univ.fold min (Ideal.ofBits .f32 0x7F800000#32)
    (fun c => Scalar.select (pos e d c) (s c) (Ideal.ofBits .f32 0x7F800000#32))

/-- A kept negative: more similar than the hardest positive less the margin. -/
def negKeep (c : Fin 8192) : BitVec 1 :=
  IntOp.andi (neg e c) (Ideal.cmp .ogt (s c) (posMin s e d - Ideal.ofBits .f32 0x3DCCCCCD#32))

/-- The greatest similarity among the kept negatives (`-∞` when there is none). -/
def negMax : EReal :=
  Finset.univ.fold max (Ideal.ofBits .f32 0xFF800000#32)
    (fun c => Scalar.select (negKeep s e d c) (s c) (Ideal.ofBits .f32 0xFF800000#32))

/-- A kept positive: less similar than the hardest kept negative plus the margin. -/
def posKeep (c : Fin 8192) : BitVec 1 :=
  IntOp.andi (pos e d c) (Ideal.cmp .olt (s c) (negMax s e d + Ideal.ofBits .f32 0x3DCCCCCD#32))

/-- The row counts: it has a positive, a negative, a kept negative and a kept positive. -/
def valid : BitVec 1 :=
  IntOp.andi (IntOp.andi (IntOp.andi (anyBit (pos e d)) (anyBit (neg e))) (anyBit (negKeep s e d))) (anyBit (posKeep s e d))

/-- `Σ e^{-2 (s - 1/2)}` over the kept positives. -/
def posSum : EReal :=
  ∑ c : Fin 8192, Scalar.select (posKeep s e d c)
    (Ideal.exp (Ideal.ofBits .f32 0xC0000000#32 * (s c - Ideal.ofBits .f32 0x3F000000#32))) (Ideal.ofBits .f32 0x00000000#32)

/-- `Σ e^{50 (s - 1/2)}` over the kept negatives. -/
def negSum : EReal :=
  ∑ c : Fin 8192, Scalar.select (negKeep s e d c)
    (Ideal.exp (Ideal.ofBits .f32 0x42480000#32 * (s c - Ideal.ofBits .f32 0x3F000000#32))) (Ideal.ofBits .f32 0x00000000#32)

/-- `log1p (posSum) / 2 + log1p (negSum) / 50`. -/
def rowLoss : EReal :=
  Ideal.div (Ideal.log1p (posSum s e d)) (Ideal.ofBits .f32 0x40000000#32)
    + Ideal.div (Ideal.log1p (negSum s e d)) (Ideal.ofBits .f32 0x42480000#32)

/-- The row's loss where the row counts, zero elsewhere. -/
def maskedLoss : EReal := Scalar.select (valid s e d) (rowLoss s e d) (Ideal.ofBits .f32 0x00000000#32)

/-- The indicator of "the row counts", as a number. -/
def validNum : EReal := (((valid s e d).toNat : ℝ) : EReal)

end Row

/-! ## All rows, from the two argument arrays

  `E` is the array of the 8192 embeddings (128 coordinates each), `L` the array of their labels. -/

section Arrays

variable (E : (⟨2, ![8192, 128]⟩ : Shape).Idx → EReal) (L : (⟨1, ![8192]⟩ : Shape).Idx → BitVec 32)

/-- The similarity of rows `r` and `c`: the inner product of their embeddings. -/
def sim (r c : Fin 8192) : EReal := ∑ k : Fin 128, E (ix2 r k) * E (ix2 c k)

/-- Rows `r` and `c` carry the same label. -/
def sameBit (r c : Fin 8192) : BitVec 1 := IntOp.cmpi .eq (L (ix1 r)) (L (ix1 c))

/-- `c` is `r` (compared as 32-bit words, which is the same for numbers below 2³²). -/
def selfBit (r c : Fin 8192) : BitVec 1 := IntOp.cmpi .eq (BitVec.ofNat 32 r.val) (BitVec.ofNat 32 c.val)

/-- Row `r`'s masked loss. -/
def lossAt (r : Fin 8192) : EReal := maskedLoss (sim E r) (sameBit L r) (selfBit r)

/-- Row `r`'s indicator. -/
def validAt (r : Fin 8192) : EReal := validNum (sim E r) (sameBit L r) (selfBit r)

/-- The mean of a total over a count, the count clamped below by one; zero when the count is not positive. -/
def meanOf (total count : EReal) : EReal :=
  Scalar.select (Ideal.cmp .ogt count (Ideal.ofBits .f32 0x00000000#32))
    (Ideal.div total (max count (Ideal.ofBits .f32 0x3F800000#32))) (Ideal.ofBits .f32 0x00000000#32)

/-- The loss: the mean of the rows' masked losses over the number of rows that count. -/
def loss : EReal := meanOf (∑ r : Fin 8192, lossAt E L r) (∑ r : Fin 8192, validAt E L r)

end Arrays

end Cert.PairLoss

end
-- ==== Proof.LibRowFold.lean ====
/-
  Reading a rank-2 array's reductions along its rows, and the layout operations around them, at explicit coordinates.

  For an `n × m` array reduced along its second axis, the source indices over the result index `p` are `(p, k)`,
  `k < m`; so a lane maximum, minimum or sum of row `p`, and a host reduction of row `p` with any commutative and
  associative body, are the fold (the sum) of the row's entries over `Fin m`. A column `[n, 1]` broadcast along the
  rows reads its entry `(p, 0)`, a row `[1, m]` broadcast down the columns reads `(0, c)`, and a vector `[n]` cast to a
  column `[n, 1]` reads its entry `p`. Imports only the library.
-/
import Idealize.ShloMosaic.PureOps.Ideal
import Idealize.ShloMosaic.PureOps.Ideal.Laws
import Idealize.ShloMosaic.PureOps.Reduce
import Idealize.ShloMosaic.Lib.IdealHost
import Idealize.ShloMosaic.Lib.ValueIdx
import Idealize.ShloMosaic.Lib.Pipeline.Value

noncomputable section

namespace Cert.RowFold

open Idealize.ShloMosaic Idealize.ShloMosaic.ValueIdx

variable {n m : Nat}

/-- The source index over the result index `p` with the column `k` inserted is `(p, k)`. -/
theorem lift_row (h : Shape.Reduces ⟨2, ![n, m]⟩ [1] ⟨1, ![n]⟩) (p : Fin n) (k : Fin m) :
    h.lift (ix1 p) k = ix2 p k := by
  funext a
  apply Fin.ext
  match a with
  | ⟨0, _⟩ => rfl
  | ⟨1, _⟩ => rfl

/-- A lane maximum of row `p`: the fold of `max` from the accumulator's value over the row. -/
theorem multiReduction_max_row {φ : FTy} (v : FVec Ideal ⟨2, ![n, m]⟩ φ) (acc : BitVec φ.bits)
    (h : Shape.Reduces ⟨2, ![n, m]⟩ [1] ⟨1, ![n]⟩) (hφ : FKind.Formats φ) (hacc : acc = FKind.maximumf.neutral φ hφ) (p : Fin n) :
    multiReduction .maximumf [1] ⟨1, ![n]⟩ v acc h hφ hacc (ix1 p)
      = (Finset.univ : Finset (Fin m)).fold max (Ideal.ofBits φ acc) (fun c => v (ix2 p c)) := by
  refine (Ideal.multiReduction_maximumf_single v acc h hφ hacc (ix1 p)).trans ?_
  show Finset.fold max _ (fun k : Fin m => v (h.lift (ix1 p) k)) Finset.univ = _
  simp only [lift_row]
  rfl

/-- A lane minimum of row `p`: the fold of `min` from the accumulator's value over the row. -/
theorem multiReduction_min_row {φ : FTy} (v : FVec Ideal ⟨2, ![n, m]⟩ φ) (acc : BitVec φ.bits)
    (h : Shape.Reduces ⟨2, ![n, m]⟩ [1] ⟨1, ![n]⟩) (hφ : FKind.Formats φ) (hacc : acc = FKind.minimumf.neutral φ hφ) (p : Fin n) :
    multiReduction .minimumf [1] ⟨1, ![n]⟩ v acc h hφ hacc (ix1 p)
      = (Finset.univ : Finset (Fin m)).fold min (Ideal.ofBits φ acc) (fun c => v (ix2 p c)) := by
  rw [multiReduction_minimumf_eq_fold]
  refine (h.fold_filter_drop_single _ _ v (ix1 p)).trans ?_
  show Finset.fold min _ (fun k : Fin m => v (h.lift (ix1 p) k)) Finset.univ = _
  simp only [lift_row]
  rfl

/-- A lane sum of row `p`: the sum of the row. -/
theorem multiReduction_add_row {φ : FTy} (v : FVec Ideal ⟨2, ![n, m]⟩ φ) (acc : BitVec φ.bits)
    (h : Shape.Reduces ⟨2, ![n, m]⟩ [1] ⟨1, ![n]⟩) (hφ : FKind.Formats φ) (hacc : acc = FKind.add.neutral φ hφ) (p : Fin n) :
    multiReduction .add [1] ⟨1, ![n]⟩ v acc h hφ hacc (ix1 p) = ∑ c : Fin m, v (ix2 p c) := by
  refine (Ideal.multiReduction_add_single v acc h hφ hacc (ix1 p)).trans ?_
  show ∑ k : Fin m, v (h.lift (ix1 p) k) = _
  simp only [lift_row]

/-- A host reduction of row `p` with a commutative and associative body: the fold from the initial value over the row. -/
theorem hostReduce_row {α : Type} {u : Shape} (f : α → α → α) [Std.Commutative f] [Std.Associative f]
    (x : (⟨2, ![n, m]⟩ : Shape).Idx → α) (init : u.Idx → α) (h' : Shape.ReducesTo ⟨2, ![n, m]⟩ [1] ⟨1, ![n]⟩)
    (h : Shape.Reduces ⟨2, ![n, m]⟩ [1] ⟨1, ![n]⟩) (hu : 0 < u.numel) (p : Fin n) :
    Host.reduce f x init h' hu (ix1 p)
      = (Finset.univ : Finset (Fin m)).fold f (init (Shape.Idx.first hu)) (fun c => x (ix2 p c)) := by
  refine (Host.reduce_eq_fold_single f x init h' h hu (ix1 p)).trans ?_
  show Finset.fold f _ (fun k : Fin m => x (h.lift (ix1 p) k)) Finset.univ = _
  simp only [lift_row]

/-- A column broadcast along the rows reads the column's entry of the row. -/
theorem broadcastTo_col {α : Type} (x : (⟨2, ![n, 1]⟩ : Shape).Idx → α) (h : (⟨2, ![n, 1]⟩ : Shape).Broadcasts ⟨2, ![n, m]⟩)
    (hn : n ≠ 1) (p : Fin n) (c : Fin m) :
    broadcastTo ⟨2, ![n, m]⟩ x h (ix2 p c) = x (ix2 p 0) :=
  broadcastTo_apply x h (ix2 p c) (ix2 p 0) (fun a => by
    match a with
    | ⟨0, _⟩ => show p.val = if n = 1 then 0 else p.val; rw [if_neg hn]
    | ⟨1, _⟩ => rfl)

/-- A row broadcast down the columns reads the row's entry of the column. -/
theorem broadcastTo_rowvec {α : Type} (x : (⟨2, ![1, m]⟩ : Shape).Idx → α) (h : (⟨2, ![1, m]⟩ : Shape).Broadcasts ⟨2, ![n, m]⟩)
    (hm : m ≠ 1) (p : Fin n) (c : Fin m) :
    broadcastTo ⟨2, ![n, m]⟩ x h (ix2 p c) = x (ix2 0 c) :=
  broadcastTo_apply x h (ix2 p c) (ix2 0 c) (fun a => by
    match a with
    | ⟨0, _⟩ => rfl
    | ⟨1, _⟩ => show c.val = if m = 1 then 0 else c.val; rw [if_neg hm])

/-- A vector cast to a column reads its entry. -/
theorem shapeCast_col {α : Type} (x : (⟨1, ![n]⟩ : Shape).Idx → α) (h : (⟨1, ![n]⟩ : Shape).ShapeCasts ⟨2, ![n, 1]⟩) (p : Fin n) :
    shapeCast ⟨2, ![n, 1]⟩ x h (ix2 p 0) = x (ix1 p) :=
  shapeCast_apply x h (ix2 p 0) (ix1 p) (by
    rw [Shape.rowMajor_val_one, Shape.rowMajor_val_two]
    show p.val = p.val * 1 + 0
    omega)

end Cert.RowFold

end
-- ==== Proof.KernelRow.lean ====
/-
  The kernel's body at one row of its block.

  At grid point `i` the body holds a block of 128 rows: their embeddings `x0` (128 × 128), the transposed embeddings of
  all 8192 rows `x1` (128 × 8192), the rows' labels `x2` (a column) and all labels `x3` (a row). Read at row `p` of the
  block, every quantity the body computes is the specification's quantity (`Cert.PairLoss`) of that row's data: the
  similarities `bsim p` (the matrix product, a sum over the 128 coordinates), the "same label" bits `bsame p`, and the
  "self" bits `bself i p` (column `c` against `128 · i + p`, as 32-bit words). The body decides "some column has the bit"
  by a lane maximum of 0/1 indicators; `PairLoss.fold_max_indicator_gt` turns that into the fold of `or`. What it stores is
  the row's masked loss and the row's indicator as a number.
-/
import proofs.«113229_j19731079758542_1_alg».proof.Proof.KernelIdealFrame
import proofs.«113229_j19731079758542_1_alg».proof.Proof.PairLoss
import proofs.«113229_j19731079758542_1_alg».proof.Proof.LibRowFold
import Idealize.ShloMosaic.Lib.Pipeline.Value
import Idealize.ShloMosaic.Lib.ValueIdx
import Idealize.ShloMosaic.PureOps.Ideal.Laws

set_option maxRecDepth 16384

noncomputable section

namespace Cert.KernelIdeal.RowValue

open Cert.KernelIdeal Cert.KernelIdeal.Gen Idealize.ShloMosaic Idealize.ShloMosaic.ValueIdx Cert.PairLoss Cert.RowFold

/-- The word of `-∞`. -/
theorem ofBits_neg_inf : Ideal.ofBits .f32 0xFF800000#32 = ⊥ := by
  simp [Ideal.ofBits, Ideal.ieee]

/-- The indicator's two values are in order: the zero word is below the word of one. -/
theorem zero_lt_one_words : Ideal.ofBits .f32 0x00000000#32 < Ideal.ofBits .f32 0x3F800000#32 := by
  rw [Ideal.ofBits_zero_f32, Ideal.ofBits_one_f32]; exact zero_lt_one

section Block

variable (i : grid0.Coords) (x0 : S128x128.Idx → EReal) (x1 : S128x8192.Idx → EReal)
  (x2 : S128x1.Idx → BitVec 32) (x3 : S1x8192.Idx → BitVec 32)

/-- Row `p` of the block: its similarities, -/
def bsim (p : Fin 128) (c : Fin 8192) : EReal := ∑ k : Fin 128, x0 (ix2 p k) * x1 (ix2 k c)
/-- its "same label" bits, -/
def bsame (p : Fin 128) (c : Fin 8192) : BitVec 1 := IntOp.cmpi .eq (x2 (ix2 p 0)) (x3 (ix2 0 c))
/-- and its "self" bits: the block's first row is row `128 · i` of the array. -/
def bself (p : Fin 128) (c : Fin 8192) : BitVec 1 :=
  IntOp.cmpi .eq (IntOp.addi (Scalar.muli (BitVec.ofNat 32 (i 0).val) 128#32) (BitVec.ofNat 32 p.val)) (BitVec.ofNat 32 c.val)

/-! ## The pointwise operations at an index -/

theorem andi_apply {s : Shape} {w : Nat} (x y : IVec s w) (j : s.Idx) : andi x y j = IntOp.andi (x j) (y j) := rfl
theorem xori_apply {s : Shape} {w : Nat} (x y : IVec s w) (j : s.Idx) : xori x y j = IntOp.xori (x j) (y j) := rfl
theorem addi_apply {s : Shape} {w : Nat} (x y : IVec s w) (j : s.Idx) : addi x y j = IntOp.addi (x j) (y j) := rfl
theorem cmpi_apply {s : Shape} {w : Nat} (q : CmpIPredicate) (x y : IVec s w) (j : s.Idx) : cmpi q x y j = IntOp.cmpi q (x j) (y j) := rfl
theorem constantI_apply' {s : Shape} {w : Nat} (b : BitVec w) (j : s.Idx) : constantI s w b j = b := rfl
theorem exp_apply {s : Shape} {φ : FTy} (x : FVec Ideal s φ) (j : s.Idx) : exp x j = Ideal.exp (x j) := rfl
theorem log1p_apply {s : Shape} {φ : FTy} (x : FVec Ideal s φ) (j : s.Idx) : log1p x j = Ideal.log1p (x j) := rfl
theorem cmpf_apply' {s : Shape} {φ : FTy} (q : CmpFPredicate) (x y : FVec Ideal s φ) (j : s.Idx) : cmpf q x y j = Ideal.cmp q (x j) (y j) := rfl
theorem ofBits_apply (φ : FTy) (b : BitVec φ.bits) : FloatOps.ofBits (F := Ideal) φ b = Ideal.ofBits φ b := rfl

/-! ## The matrix product at an entry -/

theorem lhs_0 (j : S128x8192.Idx) (q : dot_S128x128_S128x8192_S128x8192_1_0_0_1_n_n.contr.Idx) : (dot_S128x128_S128x8192_S128x8192_1_0_0_1_n_n.lhsIdx j q 0).val = (j 0).val := by
  unfold DotDims.lhsIdx
  rw [dif_neg (show ¬(0 : Fin S128x128.rank) ∈ dot_S128x128_S128x8192_S128x8192_1_0_0_1_n_n.lhsBatch by decide), dif_pos (show (0 : Fin S128x128.rank) ∈ dot_S128x128_S128x8192_S128x8192_1_0_0_1_n_n.lhsNonContracting by decide)]
  rfl
theorem lhs_1 (j : S128x8192.Idx) (q : dot_S128x128_S128x8192_S128x8192_1_0_0_1_n_n.contr.Idx) : (dot_S128x128_S128x8192_S128x8192_1_0_0_1_n_n.lhsIdx j q 1).val = (q ⟨0, by decide⟩).val :=
  dot_S128x128_S128x8192_S128x8192_1_0_0_1_n_n.lhsIdx_val_of_single rfl j q
theorem rhs_0 (j : S128x8192.Idx) (q : dot_S128x128_S128x8192_S128x8192_1_0_0_1_n_n.contr.Idx) : (dot_S128x128_S128x8192_S128x8192_1_0_0_1_n_n.rhsIdx j q 0).val = (q ⟨0, by decide⟩).val :=
  dot_S128x128_S128x8192_S128x8192_1_0_0_1_n_n.rhsIdx_val_of_single rfl j q
theorem rhs_1 (j : S128x8192.Idx) (q : dot_S128x128_S128x8192_S128x8192_1_0_0_1_n_n.contr.Idx) : (dot_S128x128_S128x8192_S128x8192_1_0_0_1_n_n.rhsIdx j q 1).val = (j 1).val := by
  unfold DotDims.rhsIdx
  rw [dif_neg (show ¬(1 : Fin S128x8192.rank) ∈ dot_S128x128_S128x8192_S128x8192_1_0_0_1_n_n.rhsBatch by decide), dif_pos (show (1 : Fin S128x8192.rank) ∈ dot_S128x128_S128x8192_S128x8192_1_0_0_1_n_n.rhsNonContracting by decide)]
  rfl

/-- Entry `(p, c)` of the product: the sum over the 128 coordinates. -/
theorem pay3_apply (p : Fin 128) (c : Fin 8192) : k0_pay3 (F := Ideal) x0 x1 (ix2 p c) = bsim x0 x1 p c := by
  unfold k0_pay3 bsim
  rw [shapeCast_self, shapeCast_self]
  simp only [matmul]
  rw [Ideal.matmul_constant_zero_apply, ← Equiv.sum_comp (ValueIdx.contrEquiv1 dot_S128x128_S128x8192_S128x8192_1_0_0_1_n_n 128 rfl rfl).symm]
  refine Finset.sum_congr rfl fun k _ => ?_
  have hk := ValueIdx.contrEquiv1_symm_val dot_S128x128_S128x8192_S128x8192_1_0_0_1_n_n 128 rfl rfl k
  have el : dot_S128x128_S128x8192_S128x8192_1_0_0_1_n_n.lhsIdx (ix2 p c) ((ValueIdx.contrEquiv1 dot_S128x128_S128x8192_S128x8192_1_0_0_1_n_n 128 rfl rfl).symm k) = ix2 p k := funext fun a => Fin.ext (by
    match a with
    | ⟨0, _⟩ => exact lhs_0 _ _
    | ⟨1, _⟩ => exact (lhs_1 _ _).trans hk)
  have er : dot_S128x128_S128x8192_S128x8192_1_0_0_1_n_n.rhsIdx (ix2 p c) ((ValueIdx.contrEquiv1 dot_S128x128_S128x8192_S128x8192_1_0_0_1_n_n 128 rfl rfl).symm k) = ix2 k c := funext fun a => Fin.ext (by
    match a with
    | ⟨0, _⟩ => exact (rhs_0 _ _).trans hk
    | ⟨1, _⟩ => exact rhs_1 _ _)
  rw [el, er]

/-! ## The masks -/

/-- "Same label" at `(p, c)`. -/
theorem pay4_apply (p : Fin 128) (c : Fin 8192) : k0_pay4 (F := Ideal) x2 x3 (ix2 p c) = bsame x2 x3 p c := by
  unfold k0_pay4 bsame
  rw [shapeCast_self, shapeCast_self]
  show IntOp.cmpi .eq (broadcastTo S128x8192 x2 _ (ix2 p c)) (broadcastTo S128x8192 x3 _ (ix2 p c)) = _
  rw [broadcastTo_col x2 _ (by decide) p c, broadcastTo_rowvec x3 _ (by decide) p c]

/-- A positive at `(p, c)`: same label and not the row itself. -/
theorem pay5_apply (p : Fin 128) (c : Fin 8192) :
    k0_pay5 (F := Ideal) i x2 x3 (ix2 p c) = pos (bsame x2 x3 p) (bself i p) c := by
  unfold k0_pay5 pos bself
  dsimp only
  show IntOp.andi (k0_pay4 (F := Ideal) x2 x3 (ix2 p c))
      (IntOp.xori (IntOp.cmpi .eq (broadcastTo S128x8192 (addi (broadcast S128x1 (Scalar.muli (BitVec.ofNat 32 (i 0).val) 128#32)) (iota .tc S128x1 32 [0] iota_S128x1_d0_w32)) _ (ix2 p c))
        (broadcastTo S128x8192 (iota .tc S1x8192 32 [1] iota_S1x8192_d1_w32) _ (ix2 p c))) 1#1) = _
  rw [pay4_apply, xor_one_eq_not, broadcastTo_col _ _ (by decide) p c, broadcastTo_rowvec _ _ (by decide) p c]
  show IntOp.andi _ (~~~(IntOp.cmpi .eq (IntOp.addi _ (iota .tc S128x1 32 [0] iota_S128x1_d0_w32 (ix2 p 0))) (iota .tc S1x8192 32 [1] iota_S1x8192_d1_w32 (ix2 0 c)))) = _
  rw [iota_single_apply, iota_single_apply]
  rfl

/-- A negative at `(p, c)`: another label. -/
theorem pay6_apply (p : Fin 128) (c : Fin 8192) : k0_pay6 (F := Ideal) x2 x3 (ix2 p c) = neg (bsame x2 x3 p) c := by
  unfold k0_pay6 neg
  show IntOp.xori (k0_pay4 (F := Ideal) x2 x3 (ix2 p c)) 1#1 = _
  rw [pay4_apply, xor_one_eq_not]

/-! ## "Some column has the bit", as the body decides it -/

/-- The greatest of the 0/1 indicators of a row of bits (from `-∞`), compared with zero: the fold of `or` over the row. -/
theorem any_of_max (M : EReal) (b : Fin 8192 → BitVec 1)
    (hM : M = Finset.univ.fold max (Ideal.ofBits .f32 0xFF800000#32) (fun c => Scalar.select (b c) (Ideal.ofBits .f32 0x3F800000#32) (Ideal.ofBits .f32 0x00000000#32))) :
    Ideal.cmp .ogt M (Ideal.ofBits .f32 0x00000000#32) = anyBit b := by
  rw [hM, ofBits_neg_inf]
  exact fold_max_indicator_gt _ b _ _ zero_lt_one_words

/-- The lane maximum of the indicators of row `p` of a mask `v`, compared with zero. -/
theorem any_row (v : IVec S128x8192 1) (b : Fin 8192 → BitVec 1) (p : Fin 128) (hv : ∀ c, v (ix2 p c) = b c) :
    Ideal.cmp .ogt
      (multiReduction (F := Ideal) .maximumf [1] S128 (select v (broadcast S128x8192 (FloatOps.ofBits (F := Ideal) .f32 0x3F800000#32)) (broadcast S128x8192 (FloatOps.ofBits (F := Ideal) .f32 0x00000000#32))) 0xFF800000#32 reduces_S128x8192_S128 (.inl rfl) rfl (ix1 p))
      (FloatOps.ofBits (F := Ideal) .f32 0x00000000#32) = anyBit b := by
  refine any_of_max _ b ((multiReduction_max_row (n := 128) (m := 8192) _ _ reduces_S128x8192_S128 _ _ p).trans ?_)
  show Finset.univ.fold max (Ideal.ofBits .f32 0xFF800000#32) (fun c => Scalar.select (v (ix2 p c)) (Ideal.ofBits .f32 0x3F800000#32) (Ideal.ofBits .f32 0x00000000#32)) = _
  simp only [hv]

/-- The row has a positive. -/
theorem pay7_apply (p : Fin 128) :
    k0_pay7 (F := Ideal) i x2 x3 (ix2 p 0) = anyBit (pos (bsame x2 x3 p) (bself i p)) := by
  unfold k0_pay7
  rw [shapeCast_col _ _ p, cmpf_apply', broadcast_apply]
  exact any_row (k0_pay5 (F := Ideal) i x2 x3) _ p (fun c => pay5_apply i x2 x3 p c)

/-! ## The thresholds and the kept pairs -/

/-- The least positive similarity of row `p`. -/
theorem posMin_row (p : Fin 128) :
    multiReduction (F := Ideal) .minimumf [1] S128 (select (k0_pay5 (F := Ideal) i x2 x3) (k0_pay3 (F := Ideal) x0 x1) (broadcast S128x8192 (FloatOps.ofBits (F := Ideal) .f32 0x7F800000#32))) 0x7F800000#32 reduces_S128x8192_S128 (.inl rfl) rfl (ix1 p)
      = posMin (bsim x0 x1 p) (bsame x2 x3 p) (bself i p) := by
  refine (multiReduction_min_row (n := 128) (m := 8192) _ _ reduces_S128x8192_S128 _ _ p).trans ?_
  unfold posMin
  show Finset.univ.fold min (Ideal.ofBits .f32 0x7F800000#32) (fun c => Scalar.select (k0_pay5 (F := Ideal) i x2 x3 (ix2 p c)) (k0_pay3 (F := Ideal) x0 x1 (ix2 p c)) (Ideal.ofBits .f32 0x7F800000#32)) = _
  simp only [pay5_apply, pay3_apply]

/-- A kept negative at `(p, c)`. -/
theorem pay8_apply (p : Fin 128) (c : Fin 8192) :
    k0_pay8 (F := Ideal) i x0 x1 x2 x3 (ix2 p c) = negKeep (bsim x0 x1 p) (bsame x2 x3 p) (bself i p) c := by
  unfold k0_pay8 negKeep
  rw [andi_apply, cmpf_apply', pay6_apply, pay3_apply, broadcastTo_col _ _ (by decide) p c, subf_apply, broadcast_apply,
    shapeCast_col _ _ p, posMin_row]
  rfl

/-- The greatest kept negative similarity of row `p`, for any vectors whose rows `p` are the similarities and the kept negatives. -/
theorem negMax_row (v5 : FVec Ideal S128x8192 .f32) (v38 : IVec S128x8192 1) (p : Fin 128)
    (s : Fin 8192 → EReal) (e d : Fin 8192 → BitVec 1)
    (h5 : ∀ c, v5 (ix2 p c) = s c) (h38 : ∀ c, v38 (ix2 p c) = negKeep s e d c) :
    multiReduction (F := Ideal) .maximumf [1] S128 (select v38 v5 (broadcast S128x8192 (FloatOps.ofBits (F := Ideal) .f32 0xFF800000#32))) 0xFF800000#32 reduces_S128x8192_S128 (.inl rfl) rfl (ix1 p)
      = negMax s e d := by
  refine (multiReduction_max_row (n := 128) (m := 8192) _ _ reduces_S128x8192_S128 _ _ p).trans ?_
  unfold negMax
  show Finset.univ.fold max (Ideal.ofBits .f32 0xFF800000#32) (fun c => Scalar.select (v38 (ix2 p c)) (v5 (ix2 p c)) (Ideal.ofBits .f32 0xFF800000#32)) = _
  simp only [h38, h5]

/-- A kept positive at `(p, c)`, for any vectors whose rows `p` are the row's similarities, positives and kept negatives. -/
theorem pay9_apply (v5 : FVec Ideal S128x8192 .f32) (v21 v38 : IVec S128x8192 1) (p : Fin 128)
    (s : Fin 8192 → EReal) (e d : Fin 8192 → BitVec 1)
    (h5 : ∀ c, v5 (ix2 p c) = s c) (h21 : ∀ c, v21 (ix2 p c) = pos e d c) (h38 : ∀ c, v38 (ix2 p c) = negKeep s e d c) (c : Fin 8192) :
    k0_pay9 (F := Ideal) v5 v21 v38 (ix2 p c) = posKeep s e d c := by
  unfold k0_pay9 posKeep
  rw [andi_apply, cmpf_apply', broadcastTo_col _ _ (by decide) p c, addf_apply, broadcast_apply, shapeCast_col _ _ p,
    negMax_row v5 v38 p s e d h5 h38, h21, h5]
  rfl

/-- The row counts. -/
theorem pay10_apply (v5 : FVec Ideal S128x8192 .f32) (v21 v22 v38 : IVec S128x8192 1) (v33 : IVec S128x1 1) (p : Fin 128)
    (s : Fin 8192 → EReal) (e d : Fin 8192 → BitVec 1)
    (h5 : ∀ c, v5 (ix2 p c) = s c) (h21 : ∀ c, v21 (ix2 p c) = pos e d c) (h22 : ∀ c, v22 (ix2 p c) = neg e c)
    (h38 : ∀ c, v38 (ix2 p c) = negKeep s e d c) (h33 : v33 (ix2 p 0) = anyBit (pos e d)) :
    k0_pay10 (F := Ideal) v5 v21 v22 v33 v38 (FloatOps.ofBits (F := Ideal) .f32 0x3F800000#32) (ix2 p 0) = valid s e d := by
  unfold k0_pay10 valid
  rw [andi_apply, andi_apply, andi_apply, h33,
    shapeCast_col _ _ p, cmpf_apply', broadcast_apply, any_row v22 _ p h22,
    shapeCast_col _ _ p, cmpf_apply', broadcast_apply, any_row v38 _ p h38,
    shapeCast_col _ _ p, cmpf_apply', broadcast_apply,
    any_row (k0_pay9 (F := Ideal) v5 v21 v38) _ p (fun c => pay9_apply v5 v21 v38 p s e d h5 h21 h38 c)]

/-- The sum over the kept positives. -/
theorem pay11_apply (v5 : FVec Ideal S128x8192 .f32) (v21 v38 : IVec S128x8192 1) (p : Fin 128)
    (s : Fin 8192 → EReal) (e d : Fin 8192 → BitVec 1)
    (h5 : ∀ c, v5 (ix2 p c) = s c) (h21 : ∀ c, v21 (ix2 p c) = pos e d c) (h38 : ∀ c, v38 (ix2 p c) = negKeep s e d c) :
    k0_pay11 (F := Ideal) v5 v21 v38 (ix2 p 0) = posSum s e d := by
  unfold k0_pay11
  refine (shapeCast_col _ _ p).trans ((multiReduction_add_row (n := 128) (m := 8192) _ _ reduces_S128x8192_S128 _ _ p).trans ?_)
  unfold posSum
  show ∑ c : Fin 8192, Scalar.select (k0_pay9 (F := Ideal) v5 v21 v38 (ix2 p c)) (Ideal.exp (Ideal.ofBits .f32 0xC0000000#32 * (v5 (ix2 p c) - Ideal.ofBits .f32 0x3F000000#32))) (Ideal.ofBits .f32 0x00000000#32) = _
  simp only [pay9_apply v5 v21 v38 p s e d h5 h21 h38, h5]

/-- The sum over the kept negatives. -/
theorem negSum_row (v5 : FVec Ideal S128x8192 .f32) (v38 : IVec S128x8192 1) (p : Fin 128)
    (s : Fin 8192 → EReal) (e d : Fin 8192 → BitVec 1)
    (h5 : ∀ c, v5 (ix2 p c) = s c) (h38 : ∀ c, v38 (ix2 p c) = negKeep s e d c) :
    multiReduction (F := Ideal) .add [1] S128
        (select v38 (exp (mulf (broadcast S128x8192 (FloatOps.ofBits (F := Ideal) .f32 0x42480000#32)) (subf v5 (broadcast S128x8192 (FloatOps.ofBits (F := Ideal) .f32 0x3F000000#32)))))
          (broadcast S128x8192 (FloatOps.ofBits (F := Ideal) .f32 0x00000000#32))) 0x00000000#32 reduces_S128x8192_S128 (.inl rfl) rfl (ix1 p)
      = negSum s e d := by
  refine (multiReduction_add_row (n := 128) (m := 8192) _ _ reduces_S128x8192_S128 _ _ p).trans ?_
  unfold negSum
  show ∑ c : Fin 8192, Scalar.select (v38 (ix2 p c)) (Ideal.exp (Ideal.ofBits .f32 0x42480000#32 * (v5 (ix2 p c) - Ideal.ofBits .f32 0x3F000000#32))) (Ideal.ofBits .f32 0x00000000#32) = _
  simp only [h38, h5]

/-- The stored loss of the row. -/
theorem pay1_apply (v5 : FVec Ideal S128x8192 .f32) (v38 : IVec S128x8192 1) (v71 : IVec S128x1 1) (v80 : FVec Ideal S128x1 .f32) (p : Fin 128)
    (s : Fin 8192 → EReal) (e d : Fin 8192 → BitVec 1)
    (h5 : ∀ c, v5 (ix2 p c) = s c) (h38 : ∀ c, v38 (ix2 p c) = negKeep s e d c)
    (h71 : v71 (ix2 p 0) = valid s e d) (h80 : v80 (ix2 p 0) = posSum s e d) :
    k0_pay1 (F := Ideal) v5 v38 v71 v80 (ix2 p 0) = maskedLoss s e d := by
  unfold k0_pay1 maskedLoss rowLoss
  rw [select_apply, h71, addf_apply, divf_apply, divf_apply, log1p_apply, log1p_apply, h80, broadcast_apply, broadcast_apply, broadcast_apply,
    shapeCast_col _ _ p, negSum_row v5 v38 p s e d h5 h38]
  rfl

/-- The stored indicator of the row, as a number. -/
theorem pay2_apply (v71 : IVec S128x1 1) (p : Fin 128) (b : BitVec 1) (h71 : v71 (ix2 p 0) = b) :
    k0_pay2 (F := Ideal) v71 (ix2 p 0) = (((b.toNat : ℝ)) : EReal) := by
  unfold k0_pay2
  show (((((v71 (ix2 p 0)).setWidth 32).toInt : ℝ)) : EReal) = _
  rw [h71]
  have hb : b = 0#1 ∨ b = 1#1 := by
    have : ∀ x : BitVec 1, x = 0#1 ∨ x = 1#1 := by decide
    exact this b
  rcases hb with rfl | rfl <;> norm_num

end Block

/-! ## What the body stores, at row `p` -/

section Stored

variable (i : grid0.Coords) (x0 : Vec Ideal S128x128 .bf16) (x1 : Vec Ideal S128x8192 .bf16)
  (x2 : Vec Ideal S128x1 .i32) (x3 : Vec Ideal S1x8192 .i32)

theorem hz : (![0, 0] : Fin 2 → Nat) = fun _ => 0 := funext fun a => by fin_cases a <;> rfl

/-- The valid bit of row `p`, as the body forms it. -/
theorem valid_row (p : Fin 128) :
    k0_pay10 (F := Ideal) (k0_pay3 x0 x1) (k0_pay5 i x2 x3) (k0_pay6 x2 x3) (k0_pay7 i x2 x3) (k0_pay8 i x0 x1 x2 x3) (Scalar.ofBits (F := Ideal) .f32 0x3F800000#32) (ix2 p 0)
      = valid (bsim x0 x1 p) (bsame x2 x3 p) (bself i p) :=
  pay10_apply _ _ _ _ _ p _ _ _ (pay3_apply x0 x1 p) (pay5_apply i x2 x3 p) (pay6_apply x2 x3 p) (pay8_apply i x0 x1 x2 x3 p) (pay7_apply i x2 x3 p)

/-- Output window 4's buffer after the body, at row `p`: the row's masked loss. -/
theorem out4_apply (p : Fin 128) :
    GenP.out0_4 (F := Ideal) i x0 x1 x2 x3 (ix2 p 0) = maskedLoss (bsim x0 x1 p) (bsame x2 x3 p) (bself i p) := by
  unfold GenP.out0_4
  rw [View.canon_unit_zero hz]
  simp only [View.ld_unit_zero (S := S128x128) hz, View.ld_unit_zero (S := S128x8192) hz, View.ld_unit_zero (S := S128x1) hz, View.ld_unit_zero (S := S1x8192) hz]
  exact pay1_apply _ _ _ _ p _ _ _ (pay3_apply x0 x1 p) (pay8_apply i x0 x1 x2 x3 p) (valid_row i x0 x1 x2 x3 p)
    (pay11_apply _ _ _ p _ _ _ (pay3_apply x0 x1 p) (pay5_apply i x2 x3 p) (pay8_apply i x0 x1 x2 x3 p))

/-- Output window 5's buffer after the body, at row `p`: the row's indicator. -/
theorem out5_apply (p : Fin 128) :
    GenP.out0_5 (F := Ideal) i x0 x1 x2 x3 (ix2 p 0) = validNum (bsim x0 x1 p) (bsame x2 x3 p) (bself i p) := by
  unfold GenP.out0_5
  rw [View.canon_unit_zero hz]
  simp only [View.ld_unit_zero (S := S128x128) hz, View.ld_unit_zero (S := S128x8192) hz, View.ld_unit_zero (S := S128x1) hz, View.ld_unit_zero (S := S1x8192) hz]
  exact pay2_apply _ p _ (valid_row i x0 x1 x2 x3 p)

end Stored

end Cert.KernelIdeal.RowValue

end
-- ==== Proof.KernelArrays.lean ====
/-
  From the kernel's blocks to its two output arrays.

  The region finds four arrays: the embeddings (the host's change of float format is the identity on extended reals), their
  transpose, and the labels cast to a column and to a row. Grid point `t` stages rows `128 t … 128 t + 127` of the
  embeddings and of the label column, and the whole transpose and label row. So row `p` of the block carries the data of
  row `r = 128 t + p` of the arrays: its similarities are the inner products of embedding `r` with every embedding, its
  label bits compare label `r` with every label, and its self bits compare `128 t + p` with the column — the
  specification's `sim`, `sameBit`, `selfBit` at `r`. Hence what point `t` writes back is block `t` of the column
  `r ↦ lossAt r` (window 4) and of `r ↦ validAt r` (window 5); the 64 blocks cover the 8192 rows, so after the run the
  two output arrays are these columns.
-/
import proofs.«113229_j19731079758542_1_alg».proof.Proof.KernelRow
import Idealize.ShloMosaic.Lib.StableHlo.Run

set_option maxRecDepth 16384

noncomputable section

namespace Cert.KernelIdeal.ArrayValue

open Cert.KernelIdeal Cert.KernelIdeal.Gen Cert.KernelIdeal.GenP Cert.KernelIdeal.RowValue
open Idealize.ShloMosaic Idealize.ShloMosaic.TcCoe Idealize.ShloMosaic.ValueIdx Cert.PairLoss Cert.RowFold
open Idealize.SL.Sem Idealize.ShloMosaic.StableHlo
open Idealize.ShloMosaic.Pipeline (Dat)

variable (m : (ℓ : Loc nD τ sig) → Buf (Elt Ideal) ℓ) (ρ : Dev nD → PrngReg)

/-- The embeddings and the labels, as launched on core `c`. -/
abbrev embs (c : Dev nD) : S8192x128.Idx → EReal := m ((c : Thread nD τ).loc main_arg0)
abbrev labels (c : Dev nD) : S8192.Idx → BitVec 32 := m ((c : Thread nD τ).loc main_arg1)

/-! ## The arrays the region finds -/

theorem V_v0 (c : Dev nD) : (V m c main_v0 : S8192x128.Idx → EReal) = embs m c := by
  show StableHlo.after hostOps0 (fun b => m (c, b)) (Proc.devRef .tc main_v0) = _
  after_results
  rfl

theorem V_v1 (c : Dev nD) : (V m c main_v1 : S128x8192.Idx → EReal)
    = transpose S128x8192 [1, 0] (embs m c) transposes_S8192x128_S128x8192_1_0 := by
  show StableHlo.after hostOps0 (fun b => m (c, b)) (Proc.devRef .tc main_v1) = _
  after_results
  rfl

theorem V_v2 (c : Dev nD) : (V m c main_v2 : S8192x1.Idx → BitVec 32)
    = shapeCast S8192x1 (labels m c) shapeCasts_S8192_S8192x1 := by
  show StableHlo.after hostOps0 (fun b => m (c, b)) (Proc.devRef .tc main_v2) = _
  after_results
  rfl

theorem V_v3 (c : Dev nD) : (V m c main_v3 : S1x8192.Idx → BitVec 32)
    = shapeCast S1x8192 (labels m c) shapeCasts_S8192_S1x8192 := by
  show StableHlo.after hostOps0 (fun b => m (c, b)) (Proc.devRef .tc main_v3) = _
  after_results
  rfl

/-- Entry `(k, r)` of the transpose is coordinate `k` of embedding `r`. -/
theorem V_v1_at (c : Dev nD) (k : Fin 128) (r : Fin 8192) :
    (V m c main_v1 : S128x8192.Idx → EReal) (ix2 k r) = embs m c (ix2 r k) := by
  rw [V_v1]
  exact transpose_apply [1, 0] _ _ (ix2 k r) (ix2 r k) (fun b => match b with
    | ⟨0, _⟩ => rfl
    | ⟨1, _⟩ => rfl)

/-- Entry `(r, 0)` of the label column is label `r`. -/
theorem V_v2_at (c : Dev nD) (r : Fin 8192) : (V m c main_v2 : S8192x1.Idx → BitVec 32) (ix2 r 0) = labels m c (ix1 r) := by
  rw [V_v2]
  exact shapeCast_col _ _ r

/-- Entry `(0, r)` of the label row is label `r`. -/
theorem V_v3_at (c : Dev nD) (r : Fin 8192) : (V m c main_v3 : S1x8192.Idx → BitVec 32) (ix2 0 r) = labels m c (ix1 r) := by
  rw [V_v3]
  exact shapeCast_apply _ _ (ix2 0 r) (ix1 r) (by
    rw [Shape.rowMajor_val_one, Shape.rowMajor_val_two]
    show r.val = 0 * 8192 + r.val
    omega)

/-! ## The windows' index maps, decided over the grid -/

theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0
    ∧ (grid0.coords t 0).val = t.val :=
  (by decide +kernel : ∀ t : Fin grid0.N, _)

/-! ## The input blocks at a point -/

theorem iblk0_at (c : Dev nD) (t : Fin cfg0.N) (p k : Fin 128) (r : Fin 8192) (hr : r.val = t.val * 128 + p.val) :
    iblk m c 0 t (ix2 p k) = embs m c (ix2 r k) := by
  show V m c main_v0 (((cfg0.win 0).blk t).view.emb (ix2 p k)) = _
  rw [V_v0]
  refine congrArg (embs m c) (funext fun a => Fin.ext ?_)
  obtain ⟨e0, e1, -⟩ := idx_facts t
  match a with
  | ⟨0, _⟩ => show win0_0.index t (0 : Fin 2) * 128 + 1 * p.val = r.val; omega
  | ⟨1, _⟩ => show win0_0.index t (1 : Fin 2) * 128 + 1 * k.val = k.val; omega

theorem iblk1_at (c : Dev nD) (t : Fin cfg0.N) (k : Fin 128) (r : Fin 8192) :
    iblk m c 1 t (ix2 k r) = embs m c (ix2 r k) := by
  show V m c main_v1 (((cfg0.win 1).blk t).view.emb (ix2 k r)) = _
  rw [← V_v1_at m c k r]
  refine congrArg (V m c main_v1) (funext fun a => Fin.ext ?_)
  obtain ⟨-, -, e0, e1, -⟩ := idx_facts t
  match a with
  | ⟨0, _⟩ => show win0_1.index t (0 : Fin 2) * 128 + 1 * k.val = k.val; omega
  | ⟨1, _⟩ => show win0_1.index t (1 : Fin 2) * 8192 + 1 * r.val = r.val; omega

theorem iblk2_at (c : Dev nD) (t : Fin cfg0.N) (p : Fin 128) (r : Fin 8192) (hr : r.val = t.val * 128 + p.val) :
    iblk m c 2 t (ix2 p 0) = labels m c (ix1 r) := by
  show V m c main_v2 (((cfg0.win 2).blk t).view.emb (ix2 p 0)) = _
  rw [← V_v2_at m c r]
  refine congrArg (V m c main_v2) (funext fun a => Fin.ext ?_)
  obtain ⟨-, -, -, -, e0, e1, -⟩ := idx_facts t
  match a with
  | ⟨0, _⟩ => show win0_2.index t (0 : Fin 2) * 128 + 1 * p.val = r.val; omega
  | ⟨1, _⟩ => show win0_2.index t (1 : Fin 2) * 1 + 1 * 0 = 0; omega

theorem iblk3_at (c : Dev nD) (t : Fin cfg0.N) (r : Fin 8192) :
    iblk m c 3 t (ix2 0 r) = labels m c (ix1 r) := by
  show V m c main_v3 (((cfg0.win 3).blk t).view.emb (ix2 0 r)) = _
  rw [← V_v3_at m c r]
  refine congrArg (V m c main_v3) (funext fun a => Fin.ext ?_)
  obtain ⟨-, -, -, -, -, -, e0, e1, -⟩ := idx_facts t
  match a with
  | ⟨0, _⟩ => show win0_3.index t (0 : Fin 2) * 1 + 1 * 0 = 0; omega
  | ⟨1, _⟩ => show win0_3.index t (1 : Fin 2) * 8192 + 1 * r.val = r.val; omega

/-! ## What the body stores at a row is the specification's row -/

/-- If row `p` of the block holds the data of row `r` of the arrays, its similarities, label bits and self bits are the
    specification's at `r`. -/
theorem stored_row (i : grid0.Coords) (x0 : Vec Ideal S128x128 .bf16) (x1 : Vec Ideal S128x8192 .bf16)
    (x2 : Vec Ideal S128x1 .i32) (x3 : Vec Ideal S1x8192 .i32)
    (Ef : S8192x128.Idx → EReal) (Lf : S8192.Idx → BitVec 32) (r : Fin 8192) (p : Fin 128)
    (h0 : ∀ k : Fin 128, x0 (ix2 p k) = Ef (ix2 r k))
    (h1 : ∀ (k : Fin 128) (c : Fin 8192), x1 (ix2 k c) = Ef (ix2 c k))
    (h2 : x2 (ix2 p 0) = Lf (ix1 r))
    (h3 : ∀ c : Fin 8192, x3 (ix2 0 c) = Lf (ix1 c))
    (hi : BitVec.ofNat 32 (i 0).val * 128#32 + BitVec.ofNat 32 p.val = BitVec.ofNat 32 r.val) :
    bsim x0 x1 p = sim Ef r ∧ bsame x2 x3 p = sameBit Lf r ∧ bself i p = selfBit r := by
  refine ⟨funext fun c => ?_, funext fun c => ?_, funext fun c => ?_⟩
  · unfold bsim sim
    exact Finset.sum_congr rfl fun k _ => by rw [h0, h1]
  · unfold bsame sameBit
    rw [h2, h3]
  · unfold bself selfBit
    show IntOp.cmpi .eq (BitVec.ofNat 32 (i 0).val * 128#32 + BitVec.ofNat 32 p.val) _ = _
    rw [hi]

theorem stored4 (i : grid0.Coords) (x0 : Vec Ideal S128x128 .bf16) (x1 : Vec Ideal S128x8192 .bf16)
    (x2 : Vec Ideal S128x1 .i32) (x3 : Vec Ideal S1x8192 .i32)
    (Ef : S8192x128.Idx → EReal) (Lf : S8192.Idx → BitVec 32) (r : Fin 8192) (p : Fin 128) (y : S128x1.Idx) (hy : y = ix2 p 0)
    (h0 : ∀ k : Fin 128, x0 (ix2 p k) = Ef (ix2 r k))
    (h1 : ∀ (k : Fin 128) (c : Fin 8192), x1 (ix2 k c) = Ef (ix2 c k))
    (h2 : x2 (ix2 p 0) = Lf (ix1 r))
    (h3 : ∀ c : Fin 8192, x3 (ix2 0 c) = Lf (ix1 c))
    (hi : BitVec.ofNat 32 (i 0).val * 128#32 + BitVec.ofNat 32 p.val = BitVec.ofNat 32 r.val) :
    GenP.out0_4 (F := Ideal) i x0 x1 x2 x3 y = lossAt Ef Lf r := by
  obtain ⟨hs, he, hd⟩ := stored_row i x0 x1 x2 x3 Ef Lf r p h0 h1 h2 h3 hi
  unfold lossAt
  rw [hy, out4_apply, hs, he, hd]

theorem stored5 (i : grid0.Coords) (x0 : Vec Ideal S128x128 .bf16) (x1 : Vec Ideal S128x8192 .bf16)
    (x2 : Vec Ideal S128x1 .i32) (x3 : Vec Ideal S1x8192 .i32)
    (Ef : S8192x128.Idx → EReal) (Lf : S8192.Idx → BitVec 32) (r : Fin 8192) (p : Fin 128) (y : S128x1.Idx) (hy : y = ix2 p 0)
    (h0 : ∀ k : Fin 128, x0 (ix2 p k) = Ef (ix2 r k))
    (h1 : ∀ (k : Fin 128) (c : Fin 8192), x1 (ix2 k c) = Ef (ix2 c k))
    (h2 : x2 (ix2 p 0) = Lf (ix1 r))
    (h3 : ∀ c : Fin 8192, x3 (ix2 0 c) = Lf (ix1 c))
    (hi : BitVec.ofNat 32 (i 0).val * 128#32 + BitVec.ofNat 32 p.val = BitVec.ofNat 32 r.val) :
    GenP.out0_5 (F := Ideal) i x0 x1 x2 x3 y = validAt Ef Lf r := by
  obtain ⟨hs, he, hd⟩ := stored_row i x0 x1 x2 x3 Ef Lf r p h0 h1 h2 h3 hi
  unfold validAt
  rw [hy, out5_apply, hs, he, hd]

/-! ## The two output arrays -/

/-- The column of the rows' masked losses, and of the rows' indicators. -/
def lossCol (E : S8192x128.Idx → EReal) (L : S8192.Idx → BitVec 32) : S8192x1.Idx → EReal :=
  fun j => lossAt E L ⟨(j 0).val, idx2_lt0 j⟩
def validCol (E : S8192x128.Idx → EReal) (L : S8192.Idx → BitVec 32) : S8192x1.Idx → EReal :=
  fun j => validAt E L ⟨(j 0).val, idx2_lt0 j⟩

/-- What point `t` writes back to window 4 is block `t` of the column `lossCol`. -/
theorem flushed4_eq (c : Dev nD) (t : Fin cfg0.N) :
    (dats m 0 c).flushed 4 t = ((cfg0.win 4).blk t).view.read (Elt Ideal) (lossCol (embs m c) (labels m c)) := by
  show (cfg0.win 4).cut (grid0.coords t) ((dats m 0 c).after 4 t) = _
  rw [after0_4]
  funext y
  have hN : cfg0.N = 64 := N_0
  have ht : t.val < 64 := by have := t.isLt; omega
  have hy0 : (y 0).val < 128 := (y 0).isLt
  have hy1 : (y 1).val < 1 := (y 1).isLt
  obtain ⟨-, -, -, -, -, -, -, -, e40, e41, e50, e51, eg⟩ := idx_facts t
  show GenP.out0_4 (grid0.coords t) (iblk m c 0 t) (iblk m c 1 t) (iblk m c 2 t) (iblk m c 3 t) y
    = lossCol (embs m c) (labels m c) (((cfg0.win 4).blk t).view.emb y)
  have hyp : y = ix2 (⟨(y 0).val, hy0⟩ : Fin 128) 0 := funext fun a => Fin.ext (by
    match a with
    | ⟨0, _⟩ => rfl
    | ⟨1, _⟩ => show (y 1).val = 0; omega)
  refine (stored4 (grid0.coords t) (iblk m c 0 t) (iblk m c 1 t) (iblk m c 2 t) (iblk m c 3 t) (embs m c) (labels m c)
    (⟨t.val * 128 + (y 0).val, by omega⟩ : Fin 8192) (⟨(y 0).val, hy0⟩ : Fin 128) y hyp
    (fun k => iblk0_at m c t _ k _ rfl) (fun k c' => iblk1_at m c t k c') (iblk2_at m c t _ _ rfl) (fun c' => iblk3_at m c t c') ?_).trans ?_
  · show BitVec.ofNat 32 (grid0.coords t 0).val * 128#32 + BitVec.ofNat 32 (y 0).val = BitVec.ofNat 32 (t.val * 128 + (y 0).val)
    rw [eg, BitVec.ofNat_add, BitVec.ofNat_mul]
  · unfold lossCol
    refine congrArg (lossAt (embs m c) (labels m c)) (Fin.ext ?_)
    show t.val * 128 + (y 0).val = win0_4.index t (0 : Fin 2) * 128 + 1 * (y 0).val
    omega

/-- An index of the array is in point `t`'s block of window 4 iff each coordinate is in the block's range. -/
theorem mem_blk4 (t : Fin cfg0.N) (j : S8192x1.Idx) :
    j ∈ ((cfg0.win 4).blk t).view.set ↔ ∀ a : Fin 2, win0_4.index t a * S128x1.size a ≤ (j a).val ∧ (j a).val < win0_4.index t a * S128x1.size a + S128x1.size a := by
  show j ∈ ((View.whole main_v4_0).slice (win0_4.rect t)).set ↔ _
  rw [View.set_slice_whole, Rect.mem_set_unit]
  exact Iff.rfl

/-- Row `r` lies in the block of point `r / 128`. -/
theorem cover4 (j : S8192x1.Idx) : ∃ t : Fin cfg0.N, (cfg0.win 4).flush t = true ∧ j ∈ ((cfg0.win 4).blk t).view.set := by
  have hj0 : (j 0).val < 8192 := (j 0).isLt
  have hj1 : (j 1).val < 1 := (j 1).isLt
  have hN : cfg0.N = 64 := N_0
  have htv : (j 0).val / 128 < cfg0.N := by omega
  obtain ⟨-, -, -, -, -, -, -, -, e40, e41, e50, e51, -⟩ := idx_facts ⟨(j 0).val / 128, htv⟩
  refine ⟨⟨(j 0).val / 128, htv⟩, flush0_4 _, ?_⟩
  rw [mem_blk4]
  intro a
  match a with
  | ⟨0, _⟩ =>
    show win0_4.index ⟨(j 0).val / 128, htv⟩ (0 : Fin 2) * 128 ≤ (j 0).val ∧ (j 0).val < win0_4.index ⟨(j 0).val / 128, htv⟩ (0 : Fin 2) * 128 + 128
    have hv : (⟨(j 0).val / 128, htv⟩ : Fin cfg0.N).val = (j 0).val / 128 := rfl
    omega
  | ⟨1, _⟩ =>
    show win0_4.index ⟨(j 0).val / 128, htv⟩ (1 : Fin 2) * 1 ≤ (j 1).val ∧ (j 1).val < win0_4.index ⟨(j 0).val / 128, htv⟩ (1 : Fin 2) * 1 + 1
    omega

/-- After the run, window 4's array is the column `lossCol`. -/
theorem final4 (c : Dev nD) : (dats m 0 c).arrAt 4 cfg0.N = lossCol (embs m c) (labels m c) :=
  (dats m 0 c).arrAt_eq_of_cover 4 _ (fun t _ => flushed4_eq m c t) cover4

/-- What point `t` writes back to window 5 is block `t` of the column `validCol`. -/
theorem flushed5_eq (c : Dev nD) (t : Fin cfg0.N) :
    (dats m 0 c).flushed 5 t = ((cfg0.win 5).blk t).view.read (Elt Ideal) (validCol (embs m c) (labels m c)) := by
  show (cfg0.win 5).cut (grid0.coords t) ((dats m 0 c).after 5 t) = _
  rw [after0_5]
  funext y
  have hN : cfg0.N = 64 := N_0
  have ht : t.val < 64 := by have := t.isLt; omega
  have hy0 : (y 0).val < 128 := (y 0).isLt
  have hy1 : (y 1).val < 1 := (y 1).isLt
  obtain ⟨-, -, -, -, -, -, -, -, e40, e41, e50, e51, eg⟩ := idx_facts t
  show GenP.out0_5 (grid0.coords t) (iblk m c 0 t) (iblk m c 1 t) (iblk m c 2 t) (iblk m c 3 t) y
    = validCol (embs m c) (labels m c) (((cfg0.win 5).blk t).view.emb y)
  have hyp : y = ix2 (⟨(y 0).val, hy0⟩ : Fin 128) 0 := funext fun a => Fin.ext (by
    match a with
    | ⟨0, _⟩ => rfl
    | ⟨1, _⟩ => show (y 1).val = 0; omega)
  refine (stored5 (grid0.coords t) (iblk m c 0 t) (iblk m c 1 t) (iblk m c 2 t) (iblk m c 3 t) (embs m c) (labels m c)
    (⟨t.val * 128 + (y 0).val, by omega⟩ : Fin 8192) (⟨(y 0).val, hy0⟩ : Fin 128) y hyp
    (fun k => iblk0_at m c t _ k _ rfl) (fun k c' => iblk1_at m c t k c') (iblk2_at m c t _ _ rfl) (fun c' => iblk3_at m c t c') ?_).trans ?_
  · show BitVec.ofNat 32 (grid0.coords t 0).val * 128#32 + BitVec.ofNat 32 (y 0).val = BitVec.ofNat 32 (t.val * 128 + (y 0).val)
    rw [eg, BitVec.ofNat_add, BitVec.ofNat_mul]
  · unfold validCol
    refine congrArg (validAt (embs m c) (labels m c)) (Fin.ext ?_)
    show t.val * 128 + (y 0).val = win0_5.index t (0 : Fin 2) * 128 + 1 * (y 0).val
    omega

/-- An index of the array is in point `t`'s block of window 5 iff each coordinate is in the block's range. -/
theorem mem_blk5 (t : Fin cfg0.N) (j : S8192x1.Idx) :
    j ∈ ((cfg0.win 5).blk t).view.set ↔ ∀ a : Fin 2, win0_5.index t a * S128x1.size a ≤ (j a).val ∧ (j a).val < win0_5.index t a * S128x1.size a + S128x1.size a := by
  show j ∈ ((View.whole main_v4_1).slice (win0_5.rect t)).set ↔ _
  rw [View.set_slice_whole, Rect.mem_set_unit]
  exact Iff.rfl

/-- Row `r` lies in the block of point `r / 128`. -/
theorem cover5 (j : S8192x1.Idx) : ∃ t : Fin cfg0.N, (cfg0.win 5).flush t = true ∧ j ∈ ((cfg0.win 5).blk t).view.set := by
  have hj0 : (j 0).val < 8192 := (j 0).isLt
  have hj1 : (j 1).val < 1 := (j 1).isLt
  have hN : cfg0.N = 64 := N_0
  have htv : (j 0).val / 128 < cfg0.N := by omega
  obtain ⟨-, -, -, -, -, -, -, -, e40, e41, e50, e51, -⟩ := idx_facts ⟨(j 0).val / 128, htv⟩
  refine ⟨⟨(j 0).val / 128, htv⟩, flush0_5 _, ?_⟩
  rw [mem_blk5]
  intro a
  match a with
  | ⟨0, _⟩ =>
    show win0_5.index ⟨(j 0).val / 128, htv⟩ (0 : Fin 2) * 128 ≤ (j 0).val ∧ (j 0).val < win0_5.index ⟨(j 0).val / 128, htv⟩ (0 : Fin 2) * 128 + 128
    have hv : (⟨(j 0).val / 128, htv⟩ : Fin cfg0.N).val = (j 0).val / 128 := rfl
    omega
  | ⟨1, _⟩ =>
    show win0_5.index ⟨(j 0).val / 128, htv⟩ (1 : Fin 2) * 1 ≤ (j 1).val ∧ (j 1).val < win0_5.index ⟨(j 0).val / 128, htv⟩ (1 : Fin 2) * 1 + 1
    omega

/-- After the run, window 5's array is the column `validCol`. -/
theorem final5 (c : Dev nD) : (dats m 0 c).arrAt 5 cfg0.N = validCol (embs m c) (labels m c) :=
  (dats m 0 c).arrAt_eq_of_cover 5 _ (fun t _ => flushed5_eq m c t) cover5

end Cert.KernelIdeal.ArrayValue

end
-- ==== Proof.KernelResult.lean ====
/-
  The kernel's result.

  After the region, @main sums the two output columns (every entry: the columns have one entry per row), compares the
  count with zero, clamps it below by one, divides, and selects: the specification's `meanOf` of the total of the rows'
  masked losses and the number of rows that count — the specification's `loss` of the argument arrays.
-/
import proofs.«113229_j19731079758542_1_alg».proof.Proof.KernelArrays
import Idealize.ShloMosaic.Lib.IdealHost

set_option maxRecDepth 16384

noncomputable section

namespace Cert.KernelIdeal.ResultValue

open Cert.KernelIdeal Cert.KernelIdeal.Gen Cert.KernelIdeal.GenP Cert.KernelIdeal.RowValue Cert.KernelIdeal.ArrayValue
open Idealize.ShloMosaic Idealize.ShloMosaic.TcCoe Idealize.ShloMosaic.ValueIdx Cert.PairLoss
open Idealize.SL.Sem Idealize.ShloMosaic.StableHlo
open Idealize.ShloMosaic.Pipeline (Dat)

/-- A sum over the entries of a one-column array is the sum over its rows. -/
theorem sum_col (A : S8192x1.Idx → EReal) : ∑ j : S8192x1.Idx, A j = ∑ r : Fin 8192, A (ix2 r 0) := by
  rw [sum_idx2]
  exact Finset.sum_congr rfl fun r _ => Fin.sum_univ_one _

/-- The host's total of a column, from the zero word. -/
theorem total_col (A : S8192x1.Idx → EReal) (i : S_.Idx) :
    Host.reduceAdd (F := Ideal) A (constant (F := Ideal) S_ .f32 0x00000000#32) reducesTo_S8192x1_S_d0_1 h_S_ i = ∑ r : Fin 8192, A (ix2 r 0) := by
  rw [hostReduceAdd_apply, Ideal.hostReduceAdd_total _ (fun b => b.elim0), sum_col, constant_apply, Ideal.ofBits_zero_f32, zero_add]

/-- The lines after the region, as a function of the two columns: the guarded mean. -/
theorem tail_of (A4 A5 : S8192x1.Idx → EReal) (i : S_.Idx) :
    select (cmpf .ogt (Host.reduceAdd (F := Ideal) A5 (constant (F := Ideal) S_ .f32 0x00000000#32) reducesTo_S8192x1_S_d0_1 h_S_) (constant (F := Ideal) S_ .f32 0x00000000#32))
      (Host.divf (Host.reduceAdd (F := Ideal) A4 (constant (F := Ideal) S_ .f32 0x00000000#32) reducesTo_S8192x1_S_d0_1 h_S_)
        (maximumf (Host.reduceAdd (F := Ideal) A5 (constant (F := Ideal) S_ .f32 0x00000000#32) reducesTo_S8192x1_S_d0_1 h_S_) (constant (F := Ideal) S_ .f32 0x3F800000#32)))
      (constant (F := Ideal) S_ .f32 0x00000000#32) i
    = meanOf (∑ r : Fin 8192, A4 (ix2 r 0)) (∑ r : Fin 8192, A5 (ix2 r 0)) := by
  unfold meanOf
  rw [select_apply, cmpf_apply', hostDivf_apply, maximumf_apply, total_col, total_col, constant_apply, constant_apply]

variable (m : (ℓ : Loc nD τ sig) → Buf (Elt Ideal) ℓ) (ρ : Dev nD → PrngReg)

/-- The result buffer after the lines that follow the region: the loss of the argument arrays. -/
theorem tail_eq (c : Dev nD) :
    Pipeline.afterTail₀ cfgs (dats m) 0 (V0 m) [hostOps1, hostOps1_1] c main_v10
      = fun _ => loss (embs m c) (labels m c) := by
  have w4 : Pipeline.withArrays (cfgs 0).spec c (V0 m c) (fun w => (dats m 0 c).arrAt w (cfgs 0).N) (Proc.devRef .tc main_v4_0)
      = lossCol (embs m c) (labels m c) :=
    (Pipeline.withArrays_arr spec0 launch0.win.arr_inj c _ _ 4).trans (final4 m c)
  have w5 : Pipeline.withArrays (cfgs 0).spec c (V0 m c) (fun w => (dats m 0 c).arrAt w (cfgs 0).N) (Proc.devRef .tc main_v4_1)
      = validCol (embs m c) (labels m c) :=
    (Pipeline.withArrays_arr spec0 launch0.win.arr_inj c _ _ 5).trans (final5 m c)
  unfold Pipeline.afterTail₀
  simp only [hostOps1, hostOps1_1, List.flatten_cons, List.flatten_nil, List.append_nil, List.cons_append, List.nil_append]
  after_results
  funext i
  refine (tail_of _ _ i).trans ?_
  rw [w4, w5]
  rfl

/-- The kernel's run, read: every weakly fair execution terminates with the result buffer at the loss of the argument
    arrays, and the argument arrays unchanged. -/
theorem run : θ_run defs (onTc (τ := τ) (main (F := Ideal))) ⟨m, fun _ => 0, ρ⟩ fun r => ∀ c : Dev nD,
      r.2.mem ((c.tc : Thread nD τ).loc main_v10) = (fun _ => loss (embs m c) (labels m c))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
      ⟨((h c).2 main_v10 (Pipeline.mem_restRefs_of main_v10 (by decide) (by decide))).trans (tail_eq m c),
       ((h c).2 main_arg0 (Pipeline.mem_restRefs_of main_arg0 (by decide) (by decide))).trans (W_main_arg0 m (dats m) c),
       ((h c).2 main_arg1 (Pipeline.mem_restRefs_of main_arg1 (by decide) (by decide))).trans (W_main_arg1 m (dats m) c)⟩)
    (run_main m ρ)

end Cert.KernelIdeal.ResultValue

end
-- ==== Proof.ReferenceLoss.lean ====
/-
  The reference program computes the pair-mining loss.

  Each value the reference writes is read at explicit coordinates — `(r, c)` for the 8192 × 8192 arrays, `r` for the
  per-row arrays — and identified with the quantity of `Cert.PairLoss` it stands for: the similarity, the "same label"
  bit and the complement of the "self" bit; the positive and negative masks; the least positive similarity, the kept
  negatives, the greatest kept negative similarity, the kept positives; the four "some column has the bit" folds and the
  row's validity; the two exponential sums, the row's loss and its masked value; last, the two totals over the rows and
  their guarded quotient. A reduction along a row is brought to a fold (or a sum) over the 8192 columns of that row.
-/
import proofs.«113229_j19731079758542_1_alg».proof.Proof.ReferenceRead
import proofs.«113229_j19731079758542_1_alg».proof.Proof.PairLoss
import Idealize.ShloMosaic.PureOps.Reduce
import Idealize.ShloMosaic.PureOps.Ideal.Laws
import Idealize.ShloMosaic.Lib.IdealHost
import Idealize.ShloMosaic.Lib.ValueIdx
import Idealize.ShloMosaic.Lib.Pipeline.Value

noncomputable section

namespace Cert.ReferenceIdeal.RefLoss

open Cert.ReferenceIdeal Cert.ReferenceIdeal.Gen Cert.ReferenceIdeal.ReadP Idealize.ShloMosaic Idealize.ShloMosaic.ValueIdx

/-! ## Indices and reductions along a row -/

/-- A rank-1 index set of extent 8192 is its coordinate's range … -/
def idxEquiv1 : (⟨1, ![8192]⟩ : Shape).Idx ≃ Fin 8192 where
  toFun j := j 0
  invFun r := ix1 r
  left_inv j := (eq_ix1 j).symm
  right_inv _ := rfl

/-- … so a sum over it is the sum over the coordinate. -/
theorem sum_idx1 (f : (⟨1, ![8192]⟩ : Shape).Idx → EReal) : ∑ j, f j = ∑ r : Fin 8192, f (ix1 r) := by
  rw [← Equiv.sum_comp idxEquiv1.symm f]
  rfl

/-- A reduction of an 8192 × 8192 array along its second axis by a commutative and associative operation is, at row
    `r`, the fold of the operation from the initial value over the row's entries. -/
theorem reduce_row {α : Type} (f : α → α → α) [Std.Commutative f] [Std.Associative f]
    (x : S8192x8192.Idx → α) (init : S_.Idx → α) (r : Fin 8192) :
    Host.reduce f x init reducesTo_S8192x8192_S8192_d1 h_S_ (ix1 r)
      = Finset.univ.fold f (init (Shape.Idx.first h_S_)) (fun c : Fin 8192 => x (ix2 r c)) := by
  have h : S8192x8192.Reduces [1] S8192 := by decide
  rw [Host.reduce_eq_fold_single f x init reducesTo_S8192x8192_S8192_d1 h h_S_ (ix1 r)]
  exact congrArg (fun g : Fin 8192 → α => Finset.univ.fold f (init (Shape.Idx.first h_S_)) g)
    (funext fun c => congrArg x (PairLoss.lift_row h r c))

/-! ## The similarity, the label bit and the self bit -/

section Stages

variable (x0 : (⟨S8192x128, .f32⟩ : BufTy).Contents (Elt Ideal)) (x1 : (⟨S8192, .i32⟩ : BufTy).Contents (Elt Ideal))
variable (r c : Fin 8192)

/-- The product of the embeddings with their transpose, at `(r, c)`: the inner product of rows `r` and `c`. -/
theorem v1_at : val_main_v1 (F := Ideal) x0 (ix2 r c) = PairLoss.sim x0 r c := by
  rw [val_main_v1_apply]
  unfold PairLoss.sim
  refine Finset.sum_congr rfl fun k _ => ?_
  rw [val_main_v0_apply]
  have e1 : lidx_main_v1 (ix2 r c) k = ix2 r k :=
    funext fun a => Fin.ext (by match a with | ⟨0, _⟩ => rfl | ⟨1, _⟩ => rfl)
  have e2 : idx_main_v0 (ridx_main_v1 (ix2 r c) k) = ix2 c k :=
    funext fun a => Fin.ext (by match a with | ⟨0, _⟩ => rfl | ⟨1, _⟩ => rfl)
  rw [e1, e2]

/-- The comparison of the labels broadcast along the rows and along the columns, at `(r, c)`. -/
theorem v6_at : val_main_v6 (F := Ideal) x1 (ix2 r c) = PairLoss.sameBit x1 r c := by
  rw [val_main_v6_apply, val_main_v4_apply, val_main_v5_apply, val_main_v2_apply, val_main_v3_apply]
  have e1 : idx_main_v2 (idx_main_v4 (ix2 r c)) = ix1 r :=
    funext fun a => Fin.ext (by match a with | ⟨0, _⟩ => rfl)
  have e2 : idx_main_v3 (idx_main_v5 (ix2 r c)) = ix1 c :=
    funext fun a => Fin.ext (by match a with | ⟨0, _⟩ => rfl)
  rw [e1, e2]
  rfl

/-- The complement of "row index plus zero equals column index", at `(r, c)`. -/
theorem v12_at : val_main_v12 (F := Ideal) (ix2 r c) = ~~~(PairLoss.selfBit r c) := by
  rw [val_main_v12_apply, val_main_v11_apply, val_main_v10_apply, val_main_v7_apply, val_main_v8_apply,
    val_main_v9_apply, val_main_c_apply]
  show ~~~(IntOp.cmpi .eq (BitVec.ofNat 32 r.val + 0#32) (BitVec.ofNat 32 c.val)) = _
  rw [BitVec.add_zero]
  rfl

/-! ## The positive and negative masks -/

theorem v13_at : val_main_v13 (F := Ideal) x1 (ix2 r c)
    = PairLoss.pos (PairLoss.sameBit x1 r) (PairLoss.selfBit r) c := by
  rw [val_main_v13_apply, v6_at, v12_at]
  rfl

theorem v14_at : val_main_v14 (F := Ideal) x1 (ix2 r c) = PairLoss.neg (PairLoss.sameBit x1 r) c := by
  rw [val_main_v14_apply, v6_at]
  rfl

/-! ## The row's positives and negatives: "some column has the bit" -/

theorem v15_at : val_main_v15 (F := Ideal) x1 (ix1 r)
    = PairLoss.anyBit (PairLoss.pos (PairLoss.sameBit x1 r) (PairLoss.selfBit r)) := by
  unfold val_main_v15
  refine (reduce_row (α := BitVec 1) IntOp.ori _ _ r).trans ?_
  unfold PairLoss.anyBit
  exact Finset.fold_congr fun c _ => v13_at x1 r c

theorem v16_at : val_main_v16 (F := Ideal) x1 (ix1 r) = PairLoss.anyBit (PairLoss.neg (PairLoss.sameBit x1 r)) := by
  unfold val_main_v16
  refine (reduce_row (α := BitVec 1) IntOp.ori _ _ r).trans ?_
  unfold PairLoss.anyBit
  exact Finset.fold_congr fun c _ => v14_at x1 r c

/-! ## The least positive similarity and the kept negatives -/

theorem v17_at : val_main_v17 (F := Ideal) x0 x1 (ix2 r c)
    = Scalar.select (PairLoss.pos (PairLoss.sameBit x1 r) (PairLoss.selfBit r) c) (PairLoss.sim x0 r c)
        (Ideal.ofBits .f32 0x7F800000#32) := by
  rw [val_main_v17_apply, v13_at, v1_at, val_main_call0_v1_apply]
  rfl

theorem v18_at : val_main_v18 (F := Ideal) x0 x1 (ix1 r)
    = PairLoss.posMin (PairLoss.sim x0 r) (PairLoss.sameBit x1 r) (PairLoss.selfBit r) := by
  unfold val_main_v18
  refine (reduce_row (α := Ideal .f32) FloatOps.minimumf _ _ r).trans ?_
  unfold PairLoss.posMin
  show Finset.univ.fold min (Ideal.ofBits .f32 0x7F800000#32) _ = _
  exact Finset.fold_congr fun c _ => v17_at x0 x1 r c

theorem v22_at : val_main_v22 (F := Ideal) x0 x1 (ix2 r c)
    = PairLoss.posMin (PairLoss.sim x0 r) (PairLoss.sameBit x1 r) (PairLoss.selfBit r)
        - Ideal.ofBits .f32 0x3DCCCCCD#32 := by
  rw [val_main_v22_apply, val_main_v21_apply]
  have e : idx_main_v21 (idx_main_v22 (ix2 r c)) = ix1 r :=
    funext fun a => Fin.ext (by match a with | ⟨0, _⟩ => rfl)
  rw [e, val_main_v20_apply, v18_at, val_main_v19_apply]
  rfl

theorem v24_at : val_main_v24 (F := Ideal) x0 x1 (ix2 r c)
    = PairLoss.negKeep (PairLoss.sim x0 r) (PairLoss.sameBit x1 r) (PairLoss.selfBit r) c := by
  rw [val_main_v24_apply, v14_at, val_main_v23_apply, v1_at, v22_at]
  rfl

theorem v25_at : val_main_v25 (F := Ideal) x0 x1 (ix1 r)
    = PairLoss.anyBit (PairLoss.negKeep (PairLoss.sim x0 r) (PairLoss.sameBit x1 r) (PairLoss.selfBit r)) := by
  unfold val_main_v25
  refine (reduce_row (α := BitVec 1) IntOp.ori _ _ r).trans ?_
  unfold PairLoss.anyBit
  exact Finset.fold_congr fun c _ => v24_at x0 x1 r c

/-! ## The greatest kept negative similarity and the kept positives -/

theorem v26_at : val_main_v26 (F := Ideal) x0 x1 (ix2 r c)
    = Scalar.select (PairLoss.negKeep (PairLoss.sim x0 r) (PairLoss.sameBit x1 r) (PairLoss.selfBit r) c)
        (PairLoss.sim x0 r c) (Ideal.ofBits .f32 0xFF800000#32) := by
  rw [val_main_v26_apply, v24_at, v1_at, val_main_call1_v1_apply]
  rfl

theorem v27_at : val_main_v27 (F := Ideal) x0 x1 (ix1 r)
    = PairLoss.negMax (PairLoss.sim x0 r) (PairLoss.sameBit x1 r) (PairLoss.selfBit r) := by
  unfold val_main_v27
  refine (reduce_row (α := Ideal .f32) FloatOps.maximumf _ _ r).trans ?_
  unfold PairLoss.negMax
  show Finset.univ.fold max (Ideal.ofBits .f32 0xFF800000#32) _ = _
  exact Finset.fold_congr fun c _ => v26_at x0 x1 r c

theorem v31_at : val_main_v31 (F := Ideal) x0 x1 (ix2 r c)
    = PairLoss.negMax (PairLoss.sim x0 r) (PairLoss.sameBit x1 r) (PairLoss.selfBit r)
        + Ideal.ofBits .f32 0x3DCCCCCD#32 := by
  rw [val_main_v31_apply, val_main_v30_apply]
  have e : idx_main_v30 (idx_main_v31 (ix2 r c)) = ix1 r :=
    funext fun a => Fin.ext (by match a with | ⟨0, _⟩ => rfl)
  rw [e, val_main_v29_apply, v27_at, val_main_v28_apply]
  rfl

theorem v33_at : val_main_v33 (F := Ideal) x0 x1 (ix2 r c)
    = PairLoss.posKeep (PairLoss.sim x0 r) (PairLoss.sameBit x1 r) (PairLoss.selfBit r) c := by
  rw [val_main_v33_apply, v13_at, val_main_v32_apply, v1_at, v31_at]
  rfl

theorem v34_at : val_main_v34 (F := Ideal) x0 x1 (ix1 r)
    = PairLoss.anyBit (PairLoss.posKeep (PairLoss.sim x0 r) (PairLoss.sameBit x1 r) (PairLoss.selfBit r)) := by
  unfold val_main_v34
  refine (reduce_row (α := BitVec 1) IntOp.ori _ _ r).trans ?_
  unfold PairLoss.anyBit
  exact Finset.fold_congr fun c _ => v33_at x0 x1 r c

/-! ## The row counts -/

theorem v37_at : val_main_v37 (F := Ideal) x0 x1 (ix1 r)
    = PairLoss.valid (PairLoss.sim x0 r) (PairLoss.sameBit x1 r) (PairLoss.selfBit r) := by
  rw [val_main_v37_apply, val_main_v36_apply, val_main_v35_apply, v15_at, v16_at, v25_at, v34_at]
  rfl

/-! ## The two exponential sums -/

theorem v42_at : val_main_v42 (F := Ideal) x0 (ix2 r c)
    = Ideal.exp (Ideal.ofBits .f32 0xC0000000#32 * (PairLoss.sim x0 r c - Ideal.ofBits .f32 0x3F000000#32)) := by
  rw [val_main_v42_apply, val_main_v41_apply, val_main_v40_apply, val_main_v39_apply, v1_at, val_main_v38_apply]
  rfl

theorem v43_at : val_main_v43 (F := Ideal) x0 x1 (ix2 r c)
    = Scalar.select (PairLoss.posKeep (PairLoss.sim x0 r) (PairLoss.sameBit x1 r) (PairLoss.selfBit r) c)
        (Ideal.exp (Ideal.ofBits .f32 0xC0000000#32 * (PairLoss.sim x0 r c - Ideal.ofBits .f32 0x3F000000#32)))
        (Ideal.ofBits .f32 0x00000000#32) := by
  rw [val_main_v43_apply, v33_at, v42_at, val_main_call2_v1_apply]
  rfl

theorem v44_at : val_main_v44 (F := Ideal) x0 x1 (ix1 r)
    = PairLoss.posSum (PairLoss.sim x0 r) (PairLoss.sameBit x1 r) (PairLoss.selfBit r) := by
  rw [val_main_v44_apply]
  unfold PairLoss.posSum
  have e0 : val_main_cst_12 (F := Ideal) (Shape.Idx.first h_S_) = 0 := Ideal.ofBits_zero_f32
  rw [e0, zero_add]
  refine Finset.sum_congr rfl fun k _ => ?_
  have e : idx_main_v44 (ix1 r) k = ix2 r k :=
    funext fun a => Fin.ext (by match a with | ⟨0, _⟩ => rfl | ⟨1, _⟩ => rfl)
  rw [e, v43_at]

theorem v49_at : val_main_v49 (F := Ideal) x0 (ix2 r c)
    = Ideal.exp (Ideal.ofBits .f32 0x42480000#32 * (PairLoss.sim x0 r c - Ideal.ofBits .f32 0x3F000000#32)) := by
  rw [val_main_v49_apply, val_main_v48_apply, val_main_v47_apply, val_main_v46_apply, v1_at, val_main_v45_apply]
  rfl

theorem v50_at : val_main_v50 (F := Ideal) x0 x1 (ix2 r c)
    = Scalar.select (PairLoss.negKeep (PairLoss.sim x0 r) (PairLoss.sameBit x1 r) (PairLoss.selfBit r) c)
        (Ideal.exp (Ideal.ofBits .f32 0x42480000#32 * (PairLoss.sim x0 r c - Ideal.ofBits .f32 0x3F000000#32)))
        (Ideal.ofBits .f32 0x00000000#32) := by
  rw [val_main_v50_apply, v24_at, v49_at, val_main_call3_v1_apply]
  rfl

theorem v51_at : val_main_v51 (F := Ideal) x0 x1 (ix1 r)
    = PairLoss.negSum (PairLoss.sim x0 r) (PairLoss.sameBit x1 r) (PairLoss.selfBit r) := by
  rw [val_main_v51_apply]
  unfold PairLoss.negSum
  have e0 : val_main_cst_16 (F := Ideal) (Shape.Idx.first h_S_) = 0 := Ideal.ofBits_zero_f32
  rw [e0, zero_add]
  refine Finset.sum_congr rfl fun k _ => ?_
  have e : idx_main_v51 (ix1 r) k = ix2 r k :=
    funext fun a => Fin.ext (by match a with | ⟨0, _⟩ => rfl | ⟨1, _⟩ => rfl)
  rw [e, v50_at]

/-! ## The row's loss, masked, and the row's indicator -/

theorem v58_at : val_main_v58 (F := Ideal) x0 x1 (ix1 r)
    = PairLoss.rowLoss (PairLoss.sim x0 r) (PairLoss.sameBit x1 r) (PairLoss.selfBit r) := by
  rw [val_main_v58_apply, val_main_v54_apply, val_main_v57_apply, val_main_v52_apply, val_main_v55_apply,
    v44_at, v51_at, val_main_v53_apply, val_main_v56_apply]
  rfl

theorem v59_at : val_main_v59 (F := Ideal) x0 x1 (ix1 r) = PairLoss.lossAt x0 x1 r := by
  rw [val_main_v59_apply, v37_at, v58_at, val_main_call4_v1_apply]
  rfl

theorem v61_at : val_main_v61 (F := Ideal) x0 x1 (ix1 r) = PairLoss.validAt x0 x1 r := by
  rw [val_main_v61_apply, v37_at]
  rfl

end Stages

/-! ## The totals over the rows and the result -/

section Result

variable (x0 : (⟨S8192x128, .f32⟩ : BufTy).Contents (Elt Ideal)) (x1 : (⟨S8192, .i32⟩ : BufTy).Contents (Elt Ideal))

theorem v60_at (i : S_.Idx) : val_main_v60 (F := Ideal) x0 x1 i = ∑ r : Fin 8192, PairLoss.lossAt x0 x1 r := by
  rw [val_main_v60_apply]
  have e0 : val_main_cst_20 (F := Ideal) (Shape.Idx.first h_S_) = 0 := Ideal.ofBits_zero_f32
  rw [e0, zero_add, sum_idx1]
  exact Finset.sum_congr rfl fun r _ => v59_at x0 x1 r

theorem v62_at (i : S_.Idx) : val_main_v62 (F := Ideal) x0 x1 i = ∑ r : Fin 8192, PairLoss.validAt x0 x1 r := by
  rw [val_main_v62_apply]
  have e0 : val_main_cst_21 (F := Ideal) (Shape.Idx.first h_S_) = 0 := Ideal.ofBits_zero_f32
  rw [e0, zero_add, sum_idx1]
  exact Finset.sum_congr rfl fun r _ => v61_at x0 x1 r

/-- The reference's result: the mean of the valid rows' losses. -/
theorem result_eq (x0 : (⟨S8192x128, .f32⟩ : BufTy).Contents (Elt Ideal)) (x1 : (⟨S8192, .i32⟩ : BufTy).Contents (Elt Ideal)) :
    Cert.ReferenceIdeal.ReadP.val_main_v66 (F := Ideal) x0 x1 = fun _ => Cert.PairLoss.loss x0 x1 := by
  funext i
  rw [val_main_v66_apply, val_main_v63_apply, val_main_v65_apply, val_main_v64_apply, v60_at, v62_at]
  rfl

end Result

end Cert.ReferenceIdeal.RefLoss

end
-- ==== Proof.lean ====
/-
  The certificate's claim, assembled.

  Both idealized programs compute one function of the two argument arrays, the pair-mining loss `Cert.PairLoss.loss`
  (Proof/PairLoss.lean): the kernel block by block (Proof/KernelRow.lean: one row of a block; Proof/KernelArrays.lean: the
  blocks make the two output columns; Proof/KernelResult.lean: the lines after the region make the mean), the reference
  over the whole 8192 × 8192 arrays (Proof/ReferenceLoss.lean). No law needing finite inputs joins them — each side is
  the same composition of exact operations, the sums and folds merely arranged by rows — so the precondition is not opened.
  The three frames are the programs' runs with the results dropped; the idealization's ledger is empty.
-/
import proofs.«113229_j19731079758542_1_alg».proof.Defs
import proofs.«113229_j19731079758542_1_alg».proof.Proof.Gen.Kernel
import proofs.«113229_j19731079758542_1_alg».proof.Proof.Gen.KernelIdeal
import proofs.«113229_j19731079758542_1_alg».proof.Proof.Gen.ReferenceIdeal
import proofs.«113229_j19731079758542_1_alg».proof.Proof.Gen.Pre_finite_inputs
import proofs.«113229_j19731079758542_1_alg».proof.Proof.KernelFrame
import proofs.«113229_j19731079758542_1_alg».proof.Proof.KernelIdealFrame
import proofs.«113229_j19731079758542_1_alg».proof.Proof.ReferenceRun
import proofs.«113229_j19731079758542_1_alg».proof.Proof.ReferenceRead
import proofs.«113229_j19731079758542_1_alg».proof.Proof.KernelResult
import proofs.«113229_j19731079758542_1_alg».proof.Proof.ReferenceLoss
import Idealize.ShloMosaic.Adequacy
import Idealize.ShloMosaic.Init

noncomputable section

namespace Cert.Proof

open Idealize.ShloMosaic Idealize.SL.Sem

theorem frame_kernel : Cert.frame_Kernel (hKernel := Cert.Kernel.Gen.facts) (hPre_finite_inputs := Cert.Pre_finite_inputs.Gen.facts) :=
  fun m ρ _ => Cert.Kernel.GenP.frame m ρ

theorem frame_kernelIdeal : Cert.frame_KernelIdeal (hKernelIdeal := Cert.KernelIdeal.Gen.facts) (hPre_finite_inputs := Cert.Pre_finite_inputs.Gen.facts) :=
  fun m ρ _ => Cert.KernelIdeal.GenP.frame m ρ

theorem frame_reference : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.ValueP.run (F := Ideal) m ρ)

/-- From memories agreeing on the arguments both programs end with the result at the loss of the kernel's argument arrays. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨_, Cert.KernelIdeal.ResultValue.run m ρ, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.ReadP.val_main_v66_eq, Cert.ReferenceIdeal.RefLoss.result_eq, (hagree c).1, (hagree c).2]
  rfl

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
